-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S128x40 .f32) (main_arg6 : FVec F S128x40 .f32) (main_arg7 : FVec F S40 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x40 .f32 := Host.absf main_arg5
  let main_cst_6 : FVec F S_ .f32 := constant S_ .f32 0x7F800000#32
  let main_v20 : FVec F S128x40 .f32 := broadcastInDim S128x40 ![] bcast_S_S128x40 main_cst_6
  let main_v21 : IVec S128x40 1 := cmpf .olt main_v19 main_v20
  let main_c_7 : IVec S_ 1 := constantI S_ 1 1#1
  let main_v22 : IVec S_ 1 := (fun x v => Host.reduce IntOp.andi x v reducesTo_S128x40_S_d0_1 h_S_) main_v21 main_c_7
  let main_v23 : IVec S_ 1 := andi main_v18 main_v22
  let main_v24 : FVec F S128x40 .f32 := Host.absf main_arg6
  let main_cst_8 : FVec F S_ .f32 := constant S_ .f32 0x7F800000#32
  let main_v25 : FVec F S128x40 .f32 := broadcastInDim S128x40 ![] bcast_S_S128x40 main_cst_8
  let main_v26 : IVec S128x40 1 := cmpf .olt main_v24 main_v25
  let main_c_9 : IVec S_ 1 := constantI S_ 1 1#1
  let main_v27 : IVec S_ 1 := (fun x v => Host.reduce IntOp.andi x v reducesTo_S128x40_S_d0_1 h_S_) main_v26 main_c_9
  let main_v28 : IVec S_ 1 := andi main_v23 main_v27
  let main_v29 : FVec F S40 .f32 := Host.absf main_arg7
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128x128 .f32) (main_arg4 : FVec F S128 .f32) (main_arg5 : FVec F S128x40 .f32) (main_arg6 : FVec F S128x40 .f32) (main_arg7 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S4000x128 : Shape := ⟨2, ![4000, 128]⟩
abbrev S4000x1 : Shape := ⟨2, ![4000, 1]⟩
abbrev S1x40 : Shape := ⟨2, ![1, 40]⟩
abbrev S100000x40 : Shape := ⟨2, ![100000, 40]⟩
abbrev S4000x40 : Shape := ⟨2, ![4000, 40]⟩
abbrev S4000 : Shape := ⟨1, ![4000]⟩

abbrev nBuf : Space → Nat
  | .hbm => 55
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x40, .f32⟩
  | .hbm, ⟨6, _⟩ => ⟨S128x40, .f32⟩
  | .hbm, ⟨7, _⟩ => ⟨S40, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000x1, .f32⟩
  | .hbm, ⟨22, _⟩ => ⟨S100000x128, .bf16⟩
  | .hbm, ⟨23, _⟩ => ⟨S_, .i32⟩
  | .hbm, ⟨24, _⟩ => ⟨S1600000, .i32⟩
  | .hbm, ⟨25, _⟩ => ⟨S1600000, .i1⟩
  | .hbm, ⟨26, _⟩ => ⟨S_, .i32⟩
  | .hbm, ⟨27, _⟩ => ⟨S1600000, .i32⟩
  | .hbm, ⟨28, _⟩ => ⟨S1600000, .i32⟩
  | .hbm, ⟨29, _⟩ => ⟨S1600000, .i32⟩
  | .hbm, ⟨30, _⟩ => ⟨S1600000x1, .i32⟩
  | .hbm, ⟨31, _⟩ => ⟨S1600000x128, .bf16⟩
  | .hbm, ⟨32, _⟩ => ⟨S1600000x128, .f32⟩
  | .hbm, ⟨33, _⟩ => ⟨S_, .f32⟩
  | .hbm, ⟨34, _⟩ => ⟨S100000x128, .f32⟩
  | .hbm, ⟨35, _⟩ => ⟨S1600000x1, .i32⟩
  | .hbm, ⟨36, _⟩ => ⟨S100000x128, .f32⟩
  | .hbm, ⟨37, _⟩ => ⟨S1x128, .f32⟩
  | .hbm, ⟨38, _⟩ => ⟨S100000x128, .bf16⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000x128, .bf16⟩
  | .hbm, ⟨48, _⟩ => ⟨S1600000x128, .f32⟩
  | .hbm, ⟨49, _⟩ => ⟨S_, .f32⟩
  | .hbm, ⟨50, _⟩ => ⟨S100000x128, .f32⟩
  | .hbm, ⟨51, _⟩ => ⟨S1600000x1, .i32⟩
  | .hbm, ⟨52, _⟩ => ⟨S100000x128, .f32⟩
  | .hbm, ⟨53, _⟩ => ⟨S1x40, .f32⟩
  | .hbm, ⟨54, _⟩ => ⟨S100000x40, .f32⟩
  | .local _ .vmem, ⟨0, _⟩ => ⟨S4000x128, .f32⟩
  | .local _ .vmem, ⟨1, _⟩ => ⟨S4000x128, .f32⟩
  | .local _ .vmem, ⟨2, _⟩ => ⟨S4000x128, .bf16⟩
  | .local _ .vmem, ⟨3, _⟩ => ⟨S4000x128, .bf16⟩
  | .local _ .vmem, ⟨4, _⟩ => ⟨S4000x1, .f32⟩
  | .local _ .vmem, ⟨5, _⟩ => ⟨S4000x1, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S4000x128, .bf16⟩
  | .local _ .vmem, ⟨10, _⟩ => ⟨S4000x128, .bf16⟩
  | .local _ .vmem, ⟨11, _⟩ => ⟨S4000x128, .f32⟩
  | .local _ .vmem, ⟨12, _⟩ => ⟨S4000x128, .f32⟩
  | .local _ .vmem, ⟨13, _⟩ => ⟨S4000x128, .bf16⟩
  | .local _ .vmem, ⟨14, _⟩ => ⟨S4000x128, .bf16⟩
  | .local _ .vmem, ⟨15, _⟩ => ⟨S4000x1, .f32⟩
  | .local _ .vmem, ⟨16, _⟩ => ⟨S4000x1, .f32⟩
  | .local _ .vmem, ⟨17, _⟩ => ⟨S128x40, .f32⟩
  | .local _ .vmem, ⟨18, _⟩ => ⟨S128x40, .f32⟩
  | .local _ .vmem, ⟨19, _⟩ => ⟨S1x40, .f32⟩
  | .local _ .vmem, ⟨20, _⟩ => ⟨S4000x40, .f32⟩
  | .local _ .vmem, ⟨21, _⟩ => ⟨S4000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_6 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x40 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x40 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x40 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4000x40 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bitsLt_bf16_f32 : FTy.bits .bf16 < FTy.bits .f32
  bcast_S_S100000x128 : S_.BroadcastsInDim S100000x128 (![] : Fin 0 → Fin S100000x128.rank)
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  packedbf16_S4000x128_S4000x128_0_0 : (Rect.unit (s := S4000x128) ![0, 0] S4000x128.size inb_S4000x128_S4000x128_0_0).PackedRows (EltTy.packing .bf16)
  shapeCasts_S40_S1x40 : S40.ShapeCasts S1x40
  inb_S128x40_S128x40_0_0 : ∀ a, (![0, 0] : Fin 2 → Nat) a + S128x40.size a ≤ S128x40.size a
  h_S128x40 : 0 < S128x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S4000x40 : S1x40.Broadcasts S4000x40
  reduces_S4000x40_S4000 : S4000x40.Reduces [1] S4000
  shapeCasts_S4000_S4000x1 : S4000.ShapeCasts S4000x1
  broadcasts_S4000x1_S4000x40 : S4000x1.Broadcasts S4000x40
  inb_S4000x40_S4000x40_0_0 : ∀ a, (![0, 0] : Fin 2 → Nat) a + S4000x40.size a ≤ S4000x40.size a
  h_S4000x40 : 0 < S4000x40.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x128_S4000x128_1_0_0_1_n_n_wf : DotDims.WF S4000x128 S128x128 S4000x128 [1] [0] [0] [1] [] []
  dot_S4000x128_S128x40_S4000x40_1_0_0_1_n_n_wf : DotDims.WF S4000x128 S128x40 S4000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .bf16 = 32 ∨ (Rect.block (s := S100000x128) S4000x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x128.size a ≤ S100000x128.size a
  hwx0_6 : ∀ i : grid0.Coords, EltTy.bits .bf16 = 32 ∨ (Rect.block (s := S100000x128) S4000x128.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .bf16 = 32 ∨ (Rect.block (s := S100000x128) S4000x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S100000x1.size a
  hwx1_2 : ∀ i : grid1.Coords, EltTy.bits .f32 = 32 ∨ (Rect.block (s := S100000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x40.size a ≤ S128x40.size a
  hwx1_3 : ∀ i : grid1.Coords, EltTy.bits .f32 = 32 ∨ (Rect.block (s := S128x40) S128x40.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x40.size a ≤ S128x40.size a
  hwx1_4 : ∀ i : grid1.Coords, EltTy.bits .f32 = 32 ∨ (Rect.block (s := S128x40) S128x40.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x40.size a ≤ S1x40.size a
  hwx1_5 : ∀ i : grid1.Coords, EltTy.bits .f32 = 32 ∨ (Rect.block (s := S1x40) S1x40.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x40.size a ≤ S100000x40.size a
  hwx1_6 : ∀ i : grid1.Coords, EltTy.bits .f32 = 32 ∨ (Rect.block (s := S100000x40) S4000x40.size (cc1_transform_6 i) (hinb1_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x40_S4000x40_1_0_0_1_n_n : DotDims S4000x128 S128x40 S4000x40 where
  lhsContracting := [1]
  rhsContracting := [0]
  lhsNonContracting := [0]
  rhsNonContracting := [1]
  lhsBatch := []
  rhsBatch := []
  wf := dot_S4000x128_S128x40_S4000x40_1_0_0_1_n_n_wf

abbrev win0_0 : Pipeline.Window sig grid0 :=
  Pipeline.Window.ofSpec (Memref.whole main_v22) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S4000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v35) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x40.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128x40.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v36) S1x40.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v37) S4000x40.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S100000x40 : Shape := ⟨2, ![100000, 40]⟩
abbrev S1x40 : Shape := ⟨2, ![1, 40]⟩

abbrev nBuf : Space → Nat
  | .hbm => 91
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x40, .f32⟩
  | .hbm, ⟨6, _⟩ => ⟨S128x40, .f32⟩
  | .hbm, ⟨7, _⟩ => ⟨S40, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S100000x128, .f32⟩
  | .hbm, ⟨38, _⟩ => ⟨S1x128, .f32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S_, .f32⟩
  | .hbm, ⟨44, _⟩ => ⟨S100000x128, .f32⟩
  | .hbm, ⟨45, _⟩ => ⟨S100000x128, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x128, .f32⟩
  | .hbm, ⟨55, _⟩ => ⟨S_, .f32⟩
  | .hbm, ⟨56, _⟩ => ⟨S100000x128, .f32⟩
  | .hbm, ⟨57, _⟩ => ⟨S1600000x1, .i32⟩
  | .hbm, ⟨58, _⟩ => ⟨S100000x128, .f32⟩
  | .hbm, ⟨59, _⟩ => ⟨S_, .f32⟩
  | .hbm, ⟨60, _⟩ => ⟨S1600000, .f32⟩
  | .hbm, ⟨61, _⟩ => ⟨S_, .f32⟩
  | .hbm, ⟨62, _⟩ => ⟨S100000, .f32⟩
  | .hbm, ⟨63, _⟩ => ⟨S1600000x1, .i32⟩
  | .hbm, ⟨64, _⟩ => ⟨S100000, .f32⟩
  | .hbm, ⟨65, _⟩ => ⟨S_, .f32⟩
  | .hbm, ⟨66, _⟩ => ⟨S100000, .f32⟩
  | .hbm, ⟨67, _⟩ => ⟨S100000, .f32⟩
  | .hbm, ⟨68, _⟩ => ⟨S100000x1, .f32⟩
  | .hbm, ⟨69, _⟩ => ⟨S100000x128, .f32⟩
  | .hbm, ⟨70, _⟩ => ⟨S100000x128, .f32⟩
  | .hbm, ⟨71, _⟩ => ⟨S100000x40, .f32⟩
  | .hbm, ⟨72, _⟩ => ⟨S1x40, .f32⟩
  | .hbm, ⟨73, _⟩ => ⟨S100000x40, .f32⟩
  | .hbm, ⟨74, _⟩ => ⟨S100000x40, .f32⟩
  | .hbm, ⟨75, _⟩ => ⟨S100000x40, .f32⟩
  | .hbm, ⟨76, _⟩ => ⟨S100000x40, .f32⟩
  | .hbm, ⟨77, _⟩ => ⟨S_, .f32⟩
  | .hbm, ⟨78, _⟩ => ⟨S100000, .f32⟩
  | .hbm, ⟨79, _⟩ => ⟨S_, .f32⟩
  | .hbm, ⟨80, _⟩ => ⟨S100000, .f32⟩
  | .hbm, ⟨81, _⟩ => ⟨S100000, .f32⟩
  | .hbm, ⟨82, _⟩ => ⟨S100000x1, .f32⟩
  | .hbm, ⟨83, _⟩ => ⟨S100000x40, .f32⟩
  | .hbm, ⟨84, _⟩ => ⟨S100000x40, .f32⟩
  | .hbm, ⟨85, _⟩ => ⟨S100000x40, .f32⟩
  | .hbm, ⟨86, _⟩ => ⟨S_, .f32⟩
  | .hbm, ⟨87, _⟩ => ⟨S100000, .f32⟩
  | .hbm, ⟨88, _⟩ => ⟨S100000x1, .f32⟩
  | .hbm, ⟨89, _⟩ => ⟨S100000x40, .f32⟩
  | .hbm, ⟨90, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_10 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_12 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000x1_S100000x40_0_1 : S100000x1.BroadcastsInDim S100000x40 (![0, 1] : Fin 2 → Fin S100000x40.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x40_S100000x40_1_0_0_1_n_n_wf : DotDims.WF S100000x128 S128x40 S100000x40 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf

class Facts : Prop extends Facts₀ where

variable [Facts]
-- ==== Proof.KRun.lean ====
/-
  The whole program's run, with the result named.  The program is four segments: host operations, the hidden-layer
  launch, host operations, the output-layer launch.  Every weakly fair execution from the launch memory terminates
  without a fault; at the end the result buffer holds what the second launch's write-backs leave in its output array
  (every block flushed over the array as the launch found it), and the eight argument arrays are as launched: the
  last segment's thread state holds every unscoped buffer at the last boundary's contents, and the result buffer is
  the second launch's output array.
-/
import proofs.«137908_j60816736911616_2_alg».proof.Proof.Gen.KernelIdeal.Frame

set_option maxRecDepth 16384

noncomputable section

namespace Cert.KernelIdeal.KRun

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option backward.isDefEq.respectTransparency.types false in
/-- Every weakly fair execution of the program ends with the result buffer at the output layer's array after the
    launch and the arguments unchanged. -/
theorem run_out : θ_run defs (onTc (τ := τ) (main (F := F))) ⟨m, fun _ => 0, ρ⟩ (fun r => ∀ c : Dev nD,
      r.2.mem ((c.tc : Thread nD τ).loc main_v37) = (dat1 (V3 m ρ) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v37 (by decide))).trans (W4_arr m ρ c 6),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.KRun

end
-- ==== Proof.Spec.lean ====
/-
  The function both programs compute: a two-layer mean-aggregating graph convolution followed by a row softmax,
  written index by index on the extended reals.

  One layer's linear part, at node `p` and output feature `e`, is
  `∑ₖ (A[p,k] / D[p]) · Wl[k,e] + ∑ₖ X[p,k] · Wr[k,e] + b[e]`:
  `A` the sums of the neighbours' feature rows, `D` the (clipped) in-degrees, `X` the nodes' own rows.
  The hidden layer clips it below at zero; the output layer normalises the exponentials of each row, shifted by
  the row's maximum.  The number of rows `R` is a parameter: a block of rows of an array computes the same
  function of its own rows.
-/
import Idealize.ShloMosaic.PureOps.Ideal
import Idealize.ShloMosaic.Lib.ValueIdx
import Mathlib.Data.Finset.Fold

noncomputable section

open scoped BigOperators

namespace Cert.Sage

open Idealize.ShloMosaic Idealize.ShloMosaic.ValueIdx

/-- One layer's linear part at row `p`, output feature `e`. -/
def lin {R n : ℕ} (A X : (⟨2, ![R, 128]⟩ : Shape).Idx → EReal) (D : Fin R → EReal)
    (Wl Wr : (⟨2, ![128, n]⟩ : Shape).Idx → EReal) (b : Fin n → EReal) (p : Fin R) (e : Fin n) : EReal :=
  (∑ k : Fin 128, Ideal.div (A (ix2 p k)) (D p) * Wl (ix2 k e)) + (∑ k : Fin 128, X (ix2 p k) * Wr (ix2 k e)) + b e

/-- The same sum with the bias added before the root term: addition of extended reals commutes and associates. -/
theorem lin_eq {R n : ℕ} (A X : (⟨2, ![R, 128]⟩ : Shape).Idx → EReal) (D : Fin R → EReal)
    (Wl Wr : (⟨2, ![128, n]⟩ : Shape).Idx → EReal) (b : Fin n → EReal) (p : Fin R) (e : Fin n) :
    ((∑ k : Fin 128, Ideal.div (A (ix2 p k)) (D p) * Wl (ix2 k e)) + b e) + (∑ k : Fin 128, X (ix2 p k) * Wr (ix2 k e))
      = lin A X D Wl Wr b p e := by
  unfold lin; exact add_right_comm _ _ _

/-- The hidden layer: the linear part clipped below at the value of the zero pattern. -/
def hidden {R : ℕ} (A X : (⟨2, ![R, 128]⟩ : Shape).Idx → EReal) (D : Fin R → EReal)
    (Wl Wr : (⟨2, ![128, 128]⟩ : Shape).Idx → EReal) (b : Fin 128 → EReal) (p : Fin R) (e : Fin 128) : EReal :=
  max (lin A X D Wl Wr b p e) (Ideal.ofBits .f32 0x00000000#32)

/-- A row's maximum, folded from the value of the pattern of minus infinity. -/
def rowmax (z : Fin 40 → EReal) : EReal :=
  (Finset.univ : Finset (Fin 40)).fold max (Ideal.ofBits .f32 0xFF800000#32) z

/-- Taking the maximum with the fold's starting value once more changes nothing. -/
theorem max_init_rowmax (z : Fin 40 → EReal) : max (Ideal.ofBits .f32 0xFF800000#32) (rowmax z) = rowmax z :=
  max_eq_right ((Finset.le_fold_max _).mpr (Or.inl le_rfl))

/-- A row's softmax: the shifted exponentials over their sum. -/
def soft (z : Fin 40 → EReal) (e : Fin 40) : EReal :=
  Ideal.div (Ideal.exp (z e - rowmax z)) (∑ k : Fin 40, Ideal.exp (z k - rowmax z))

/-- The output layer: the softmax of the linear part's row. -/
def probs {R : ℕ} (A X : (⟨2, ![R, 128]⟩ : Shape).Idx → EReal) (D : Fin R → EReal)
    (Wl Wr : (⟨2, ![128, 40]⟩ : Shape).Idx → EReal) (b : Fin 40 → EReal) (p : Fin R) (e : Fin 40) : EReal :=
  soft (fun k => lin A X D Wl Wr b p k) e

end Cert.Sage

end
-- ==== Proof.LibDot.lean ====
/-
  A product of an `[m, k]` array by a `[k, n]` array over ONE contracted axis, read at an output index `(p, e)` on the
  extended reals as the plain sum `∑ⱼ A[p, j] · B[j, e]` over `j : Fin k` — for the vector unit's matrix product into a zero
  accumulator and for the host's `dot_general` alike, whatever the two operands' float formats.  The dimension numbers
  enter only through four facts: where they send an output index and a contraction index in each operand.
-/
import Idealize.ShloMosaic.PureOps.Ideal
import Idealize.ShloMosaic.PureOps.Ideal.Laws
import Idealize.ShloMosaic.Lib.ValueIdx

noncomputable section

open scoped BigOperators

namespace Cert.LibDot

open Idealize.ShloMosaic Idealize.ShloMosaic.ValueIdx

/-- The sum over the contraction index, re-indexed by the contracted axis's one coordinate. -/
theorem contract_sum {m k n : ℕ} {φ₁ φ₂ : FTy} (D : DotDims ⟨2, ![m, k]⟩ ⟨2, ![k, n]⟩ ⟨2, ![m, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (A : FVec Ideal ⟨2, ![m, k]⟩ φ₁) (B : FVec Ideal ⟨2, ![k, n]⟩ φ₂) (p : Fin m) (e : Fin n) :
    ∑ q : D.contr.Idx, A (D.lhsIdx (ix2 p e) q) * B (D.rhsIdx (ix2 p e) q) = ∑ j : Fin k, A (ix2 p j) * B (ix2 j e) := by
  rw [← Equiv.sum_comp (contrEquiv1 D k hr hs).symm]
  refine Finset.sum_congr rfl fun j _ => ?_
  have hk := contrEquiv1_symm_val D k hr hs j
  have el : D.lhsIdx (ix2 p e) ((contrEquiv1 D k hr hs).symm j) = ix2 p j := funext fun a => Fin.ext (by
    match a with
    | ⟨0, _⟩ => exact hl0 _ _
    | ⟨1, _⟩ => exact (hl1 _ _).trans hk)
  have er : D.rhsIdx (ix2 p e) ((contrEquiv1 D k hr hs).symm j) = ix2 j e := funext fun a => Fin.ext (by
    match a with
    | ⟨0, _⟩ => exact (hr0 _ _).trans hk
    | ⟨1, _⟩ => exact hr1 _ _)
  rw [el, er]

/-- The vector unit's matrix product into the zero accumulator, at `(p, e)`. -/
theorem matmul_zero_apply {m k n : ℕ} {φ₁ φ₂ : FTy} (D : DotDims ⟨2, ![m, k]⟩ ⟨2, ![k, n]⟩ ⟨2, ![m, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (A : FVec Ideal ⟨2, ![m, k]⟩ φ₁) (B : FVec Ideal ⟨2, ![k, n]⟩ φ₂)
    (p : Fin m) (e : Fin n) :
    FloatOps.matmul D prec A B (constant ⟨2, ![m, n]⟩ .f32 0x00000000#32) (ix2 p e) = ∑ j : Fin k, A (ix2 p j) * B (ix2 j e) :=
  (Ideal.matmul_constant_zero_apply D prec A B (ix2 p e)).trans (contract_sum D hr hs hl0 hl1 hr0 hr1 A B p e)

/-- The host's `dot_general`, at `(p, e)`. -/
theorem dotGeneral_apply {m k n : ℕ} {φ₁ φ₂ : FTy} (D : DotDims ⟨2, ![m, k]⟩ ⟨2, ![k, n]⟩ ⟨2, ![m, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (sched : HostSchedule) (A : FVec Ideal ⟨2, ![m, k]⟩ φ₁) (B : FVec Ideal ⟨2, ![k, n]⟩ φ₂)
    (p : Fin m) (e : Fin n) :
    FloatOps.dotGeneral D prec sched A B (ix2 p e) = ∑ j : Fin k, A (ix2 p j) * B (ix2 j e) :=
  (Ideal.dotGeneral_apply D prec sched A B (ix2 p e)).trans (contract_sum D hr hs hl0 hl1 hr0 hr1 A B p e)

end Cert.LibDot

end
-- ==== Proof.LibRowwise.lean ====
/-
  Layout operations of row-wise kernels read at an index written by coordinates, over abstract extents, and a
  matrix product into a zero accumulator read as a plain sum.

  * a vector of `a` entries cast to a column `[a, 1]` reads, at `(i, u)`, the vector at `i`;
  * a column `[a, 1]` broadcast to `[a, b]` reads, at `(p, c)`, the column at `(p, 0)`: every entry of a row is the row's one value;
  * two arrays `[R, a]` and `[R, b]` joined along the second axis read, at `(r, j)`, the first at `(r, j)` when `j < a`
    and the second at `(r, j - a)` otherwise;
  * a product of an `[m, k]` by a `[k, n]` array contracting the first's columns with the second's rows, accumulated into
    zero, is `∑ⱼ A[p, j] · B[j, e]` at `(p, e)` on the extended reals.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.LibRowwise

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, row `p`'s one entry. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Two arrays joined along the second axis, read at `(r, j)`: the first below its width `a`, the second from `a` on. -/
theorem concatenate_cols_apply {R a b c : ℕ} (hc : c = a + b) (x : (⟨2, ![R, a]⟩ : Shape).Idx → α) (y : (⟨2, ![R, b]⟩ : Shape).Idx → α)
    (h : Shape.Concatenates [(⟨2, ![R, a]⟩ : Shape), ⟨2, ![R, b]⟩] ⟨2, ![R, c]⟩ (1 : Fin 2)) (r : Fin R) (j : Fin c) :
    concatenate ⟨2, ![R, c]⟩ (1 : Fin 2) [⟨⟨2, ![R, a]⟩, x⟩, ⟨⟨2, ![R, b]⟩, y⟩] h (ix2 r j)
      = if hj : j.val < a then x (ix2 r ⟨j.val, hj⟩) else y (ix2 r ⟨j.val - a, by have := j.isLt; omega⟩) := by
  by_cases hj : j.val < a
  · rw [dif_pos hj]
    exact concatenate_pair_apply_left (1 : Fin 2) x y h (ix2 r j) rfl (ix2 r ⟨j.val, hj⟩) (fun d => by
      match d with
      | ⟨0, _⟩ => rfl
      | ⟨1, _⟩ => rfl)
  · rw [dif_neg hj]
    exact concatenate_pair_apply_right (1 : Fin 2) x y h (ix2 r j) rfl rfl
      (ix2 r ⟨j.val - a, by have := j.isLt; omega⟩) (fun d hd => by
        match d with
        | ⟨0, _⟩ => rfl
        | ⟨1, _⟩ => exact absurd rfl hd) (by show (j.val - a) + a = j.val; omega)

/-- A matrix product of rows by columns into the zero accumulator, at `(p, e)`: the sum over the one contracted
    coordinate of `A[p, j] · B[j, e]`.  The four hypotheses say where the product's dimension numbers send an output
    index and a contraction index in each operand (rows of the first with its columns contracted against the rows of
    the second). -/
theorem matmul_zero_apply {m k n : ℕ} (D : DotDims ⟨2, ![m, k]⟩ ⟨2, ![k, n]⟩ ⟨2, ![m, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (A : FVec Ideal ⟨2, ![m, k]⟩ .f32) (B : FVec Ideal ⟨2, ![k, n]⟩ .f32)
    (p : Fin m) (e : Fin n) :
    FloatOps.matmul D prec A B (constant ⟨2, ![m, n]⟩ .f32 0x00000000#32) (ix2 p e) = ∑ j : Fin k, A (ix2 p j) * B (ix2 j e) := by
  rw [Ideal.matmul_constant_zero_apply, ← Equiv.sum_comp (contrEquiv1 D k hr hs).symm]
  refine Finset.sum_congr rfl fun j _ => ?_
  have hk := contrEquiv1_symm_val D k hr hs j
  have el : D.lhsIdx (ix2 p e) ((contrEquiv1 D k hr hs).symm j) = ix2 p j := funext fun a => Fin.ext (by
    match a with
    | ⟨0, _⟩ => exact hl0 _ _
    | ⟨1, _⟩ => exact (hl1 _ _).trans hk)
  have er : D.rhsIdx (ix2 p e) ((contrEquiv1 D k hr hs).symm j) = ix2 j e := funext fun a => Fin.ext (by
    match a with
    | ⟨0, _⟩ => exact (hr0 _ _).trans hk
    | ⟨1, _⟩ => exact hr1 _ _)
  rw [el, er]

end Cert.LibRowwise

end
-- ==== Proof.Pay.lean ====
/-
  The two kernel bodies' arithmetic, read at one element on the extended reals, is the target function:
  the hidden-layer body computes `Cert.Sage.hidden` and the output-layer body `Cert.Sage.probs` of the rows it is given.
-/
import proofs.«137908_j60816736911616_2_alg».proof.Proof.Gen.KernelIdeal.Skeleton
import proofs.«137908_j60816736911616_2_alg».proof.Proof.Spec
import proofs.«137908_j60816736911616_2_alg».proof.Proof.LibDot
import proofs.«137908_j60816736911616_2_alg».proof.Proof.LibRowwise
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-! ## The linear part

The pre-activation of either layer: the quotient of the neighbour sums by the degree column, multiplied into the first
weight matrix, plus the nodes' own rows multiplied into the second, plus the bias row broadcast over the rows.  The
changes of float format are the identity on the extended reals, each cast is to the operand's own shape, the degree
column is read at its one entry and the bias row at its one row, and each product into the zero accumulator is the plain
sum over the contracted coordinate. -/

/-- The pre-activation at row `p`, output feature `e`, is the layer's linear part, whatever the output width `n`. -/
theorem lin_apply {n : ℕ} (D : DotDims (⟨2, ![4000, 128]⟩ : Shape) ⟨2, ![128, n]⟩ ⟨2, ![4000, n]⟩)
    (hr : D.contr.rank = 1) (hs : D.contr.size ⟨0, by omega⟩ = 128)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hc0 : S4000x128.ShapeCasts S4000x128) (hc2 : S4000x1.ShapeCasts S4000x1) (hb2 : S4000x1.Broadcasts S4000x128)
    (hc16 : (⟨2, ![1, n]⟩ : Shape).ShapeCasts ⟨2, ![1, n]⟩) (hb16 : (⟨2, ![1, n]⟩ : Shape).Broadcasts ⟨2, ![4000, n]⟩)
    (hlt : FTy.bits .bf16 < FTy.bits .f32)
    (v0 : FVec Ideal S4000x128 .f32) (v2 : FVec Ideal S4000x1 .f32) (v7 : FVec Ideal S4000x128 .bf16)
    (v9 v11 : FVec Ideal ⟨2, ![128, n]⟩ .f32) (v16 : FVec Ideal ⟨2, ![1, n]⟩ .f32) (p : Fin 4000) (e : Fin n) :
    addf (addf
        (matmul D none (truncf .bf16 (divf (shapeCast S4000x128 v0 hc0) (broadcastTo S4000x128 (shapeCast S4000x1 v2 hc2) hb2)) hlt)
          (truncf .bf16 v9 hlt) (constant (F := Ideal) ⟨2, ![4000, n]⟩ .f32 0x00000000#32))
        (matmul D none (shapeCast S4000x128 v7 hc0) (truncf .bf16 v11 hlt) (constant (F := Ideal) ⟨2, ![4000, n]⟩ .f32 0x00000000#32)))
      (broadcastTo ⟨2, ![4000, n]⟩ (shapeCast ⟨2, ![1, n]⟩ v16 hc16) hb16) (ix2 p e)
      = Cert.Sage.lin v0 v7 (fun q => v2 (ix2 q (0 : Fin 1))) v9 v11 (fun k => v16 (ix2 (0 : Fin 1) k)) p e := by
  rw [addf_apply, addf_apply]
  unfold Cert.Sage.lin
  refine congrArg₂ (· + ·) (congrArg₂ (· + ·) ?_ ?_) ?_
  · refine (Cert.LibDot.matmul_zero_apply D hr hs hl0 hl1 hr0 hr1 none _ _ p e).trans ?_
    refine Finset.sum_congr rfl fun k _ => ?_
    rw [truncf_apply, truncf_apply, divf_apply, shapeCast_self, Cert.LibRowwise.broadcastTo_a1_ab_apply, shapeCast_self]
  · refine (Cert.LibDot.matmul_zero_apply D hr hs hl0 hl1 hr0 hr1 none _ _ p e).trans ?_
    refine Finset.sum_congr rfl fun k _ => ?_
    rw [truncf_apply, shapeCast_self]
  · rw [broadcastTo_1b_ab_apply, shapeCast_self]

/-! ## The hidden layer's body -/

/-- The hidden-layer body at `(p, e)`: the linear part clipped below at zero; the last change of format is the identity. -/
theorem pay0_apply (v0 : Vec Ideal S4000x128 .f32) (v2 : Vec Ideal S4000x1 .f32) (v7 : Vec Ideal S4000x128 .bf16)
    (v9 v11 : Vec Ideal S128x128 .f32) (v16 : Vec Ideal S1x128 .f32) (p : Fin 4000) (e : Fin 128) :
    k0_pay1 (F := Ideal) v0 v2 v7 v9 v11 v16 (ix2 p e)
      = Cert.Sage.hidden v0 v7 (fun q => v2 (ix2 q (0 : Fin 1))) v9 v11 (fun k => v16 (ix2 (0 : Fin 1) k)) p e := by
  unfold k0_pay1 Cert.Sage.hidden
  exact congrArg₂ max
    (lin_apply dot_S4000x128_S128x128_S4000x128_1_0_0_1_n_n rfl rfl (fun _ _ => rfl) (fun _ _ => rfl) (fun _ _ => rfl)
      (fun _ _ => rfl) _ _ _ _ _ _ v0 v2 v7 v9 v11 v16 p e) rfl

/-! ## The output layer's body

Each lane reduction over axis 1 of a `[4000, 40]` array reads, at row `p`, the row's 40 entries; cast to a column and
broadcast back over the lanes it is the same value at every lane of the row. -/

/-- The source index of a lane reduction over row `p` with lane `k` inserted is `(p, k)`. -/
theorem lift_row (h : S4000x40.Reduces [1] S4000) (p : Fin 4000) (k : Fin 40) : h.lift (ix1 p) k = ix2 p k := by
  funext a
  refine Fin.ext ?_
  match a with
  | ⟨0, _⟩ => rfl
  | ⟨1, _⟩ => rfl

/-- The maximum over the lanes, at row `p`: the fold of `max` over the row from the value of minus infinity's pattern. -/
theorem rowmax_apply (x : FVec Ideal S4000x40 .f32) (h : S4000x40.Reduces [1] S4000) (hφ : FKind.Formats .f32)
    (hacc : (0xFF800000#32 : BitVec 32) = FKind.maximumf.neutral .f32 hφ) (p : Fin 4000) :
    multiReduction (F := Ideal) .maximumf [1] S4000 x 0xFF800000#32 h hφ hacc (ix1 p)
      = Cert.Sage.rowmax fun k => x (ix2 p k) := by
  refine (Ideal.multiReduction_maximumf_single x _ h hφ hacc (ix1 p)).trans ?_
  have hf : (x ∘ h.lift (ix1 p)) = fun k : Fin 40 => x (ix2 p k) := funext fun k => congrArg x (lift_row h p k)
  exact congrArg (fun f => Finset.fold max (Ideal.ofBits .f32 0xFF800000#32) f (Finset.univ : Finset (Fin 40))) hf

/-- The sum over the lanes, at row `p`: the sum of the row's 40 entries. -/
theorem rowsum_apply (x : FVec Ideal S4000x40 .f32) (h : S4000x40.Reduces [1] S4000) (hφ : FKind.Formats .f32)
    (hacc : (0x00000000#32 : BitVec 32) = FKind.add.neutral .f32 hφ) (p : Fin 4000) :
    multiReduction (F := Ideal) .add [1] S4000 x 0x00000000#32 h hφ hacc (ix1 p) = ∑ k : Fin 40, x (ix2 p k) := by
  refine (Ideal.multiReduction_add_single x _ h hφ hacc (ix1 p)).trans ?_
  exact Finset.sum_congr rfl fun k _ => congrArg x (lift_row h p k)

/-- A per-row value cast to a column and broadcast over the lanes reads, at `(p, e)`, row `p`'s value. -/
theorem col_apply (r : FVec Ideal S4000 .f32) (hc : S4000.ShapeCasts S4000x1) (hb : S4000x1.Broadcasts S4000x40)
    (p : Fin 4000) (e : Fin 40) : broadcastTo S4000x40 (shapeCast S4000x1 r hc) hb (ix2 p e) = r (ix1 p) :=
  (Cert.LibRowwise.broadcastTo_a1_ab_apply _ hb p e).trans (Cert.LibRowwise.shapeCast_a_a1_apply r hc p 0)

/-- The normalisation of a `[4000, 40]` array's rows: the exponentials of each row shifted by its maximum, over their
    sum, is the row's softmax. -/
theorem soft_apply (x : FVec Ideal S4000x40 .f32) (h : S4000x40.Reduces [1] S4000) (hφ : FKind.Formats .f32)
    (hmax : (0xFF800000#32 : BitVec 32) = FKind.maximumf.neutral .f32 hφ)
    (hadd : (0x00000000#32 : BitVec 32) = FKind.add.neutral .f32 hφ)
    (hc : S4000.ShapeCasts S4000x1) (hb : S4000x1.Broadcasts S4000x40) (p : Fin 4000) (e : Fin 40) :
    divf
        (exp (subf x (broadcastTo S4000x40
          (shapeCast S4000x1 (multiReduction (F := Ideal) .maximumf [1] S4000 x 0xFF800000#32 h hφ hmax) hc) hb)))
        (broadcastTo S4000x40 (shapeCast S4000x1 (multiReduction (F := Ideal) .add [1] S4000
          (exp (subf x (broadcastTo S4000x40
            (shapeCast S4000x1 (multiReduction (F := Ideal) .maximumf [1] S4000 x 0xFF800000#32 h hφ hmax) hc) hb)))
          0x00000000#32 h hφ hadd) hc) hb) (ix2 p e)
      = Cert.Sage.soft (fun k => x (ix2 p k)) e := by
  have hsh : ∀ k : Fin 40,
      exp (subf x (broadcastTo S4000x40
          (shapeCast S4000x1 (multiReduction (F := Ideal) .maximumf [1] S4000 x 0xFF800000#32 h hφ hmax) hc) hb)) (ix2 p k)
        = Ideal.exp (x (ix2 p k) - Cert.Sage.rowmax fun k => x (ix2 p k)) := fun k =>
    congrArg (fun m => Ideal.exp (x (ix2 p k) - m)) ((col_apply _ hc hb p k).trans (rowmax_apply x h hφ hmax p))
  rw [divf_apply, col_apply, rowsum_apply, hsh]
  unfold Cert.Sage.soft
  exact congrArg (Ideal.div _) (Finset.sum_congr rfl fun k _ => hsh k)

/-- The output-layer body at `(p, e)`: the softmax of the linear part's row. -/
theorem pay1_apply (v0 : Vec Ideal S4000x128 .f32) (v2 : Vec Ideal S4000x1 .f32) (v7 : Vec Ideal S4000x128 .bf16)
    (v9 v11 : Vec Ideal S128x40 .f32) (v16 : Vec Ideal S1x40 .f32) (p : Fin 4000) (e : Fin 40) :
    k1_pay1 (F := Ideal) v0 v2 v7 v9 v11 v16 (ix2 p e)
      = Cert.Sage.probs v0 v7 (fun q => v2 (ix2 q (0 : Fin 1))) v9 v11 (fun k => v16 (ix2 (0 : Fin 1) k)) p e := by
  unfold k1_pay1 Cert.Sage.probs
  refine (soft_apply _ reduces_S4000x40_S4000 (.inl rfl) rfl rfl _ _ p e).trans ?_
  exact congrArg (fun z => Cert.Sage.soft z e) (funext fun k =>
    lin_apply dot_S4000x128_S128x40_S4000x40_1_0_0_1_n_n rfl rfl (fun _ _ => rfl) (fun _ _ => rfl) (fun _ _ => rfl)
      (fun _ _ => rfl) _ _ _ _ _ _ v0 v2 v7 v9 v11 v16 p k)

end Cert.KernelIdeal.Pay

end
-- ==== Proof.RefValue.lean ====
/-
  The reference program's result, read at an index, is the specification.

  The reference computes the hidden layer as relu(((A / D) · W1l + b1) + X · W1r) and the output as the row softmax of
  ((A2 / D) · W2l + b2) + H · W2r, where the neighbour sums A, A2 and the clipped in-degrees D stay opaque arrays.
  Read at (r, e) on the extended reals, each stage is the specification's formula with those arrays as its arguments:
  the bias is added before the root term, which commutativity and associativity of the sum absorb; the row maximum is a
  fold of max from the value of the pattern of minus infinity, and taking the maximum with that value once more changes
  nothing; the float sum starts from the zero pattern, whose value is 0.
-/
import proofs.«137908_j60816736911616_2_alg».proof.Proof.Gen.ReferenceIdeal.Read
import proofs.«137908_j60816736911616_2_alg».proof.Proof.Spec
import Idealize.ShloMosaic.Lib.ValueIdx
import Idealize.ShloMosaic.Lib.Pipeline.Value
import Idealize.ShloMosaic.PureOps.Ideal.Laws
import Idealize.ShloMosaic.PureOps.Reduce

noncomputable section

open scoped BigOperators

namespace Cert.ReferenceIdeal.RefValue

open Cert.ReferenceIdeal Cert.ReferenceIdeal.Gen Cert.ReferenceIdeal.Read Idealize.ShloMosaic Idealize.ShloMosaic.ValueIdx

/-! ## Index equations

  The stages' composed index maps, at an index written by coordinates: a product's operand indices at (r, e) and
  contraction coordinate k are (r, k) and (k, e); a vector broadcast to a column and then along the rows reads entry r;
  a vector broadcast to a row and then down the rows reads entry e; a row reduction's operand index at r and k is (r, k). -/

theorem lidx23 (r : Fin 100000) (e k : Fin 128) : lidx_main_v23 (ix2 r e) k = ix2 r k :=
  funext fun a => Fin.ext (by match a with | ⟨0, _⟩ => rfl | ⟨1, _⟩ => rfl)
theorem ridx23 (r : Fin 100000) (e k : Fin 128) : ridx_main_v23 (ix2 r e) k = ix2 k e :=
  funext fun a => Fin.ext (by match a with | ⟨0, _⟩ => rfl | ⟨1, _⟩ => rfl)
theorem lidx27 (r : Fin 100000) (e k : Fin 128) : lidx_main_v27 (ix2 r e) k = ix2 r k :=
  funext fun a => Fin.ext (by match a with | ⟨0, _⟩ => rfl | ⟨1, _⟩ => rfl)
theorem ridx27 (r : Fin 100000) (e k : Fin 128) : ridx_main_v27 (ix2 r e) k = ix2 k e :=
  funext fun a => Fin.ext (by match a with | ⟨0, _⟩ => rfl | ⟨1, _⟩ => rfl)
theorem idx20_21 (r : Fin 100000) (k : Fin 128) : idx_main_v20 (idx_main_v21 (ix2 r k)) = ix1 r :=
  funext fun a => Fin.ext (by match a with | ⟨0, _⟩ => rfl)
theorem idx24_25 (r : Fin 100000) (e : Fin 128) : idx_main_v24 (idx_main_v25 (ix2 r e)) = ix1 e :=
  funext fun a => Fin.ext (by match a with | ⟨0, _⟩ => rfl)

theorem lidx49 (r : Fin 100000) (e : Fin 40) (k : Fin 128) : lidx_main_v49 (ix2 r e) k = ix2 r k :=
  funext fun a => Fin.ext (by match a with | ⟨0, _⟩ => rfl | ⟨1, _⟩ => rfl)
theorem ridx49 (r : Fin 100000) (e : Fin 40) (k : Fin 128) : ridx_main_v49 (ix2 r e) k = ix2 k e :=
  funext fun a => Fin.ext (by match a with | ⟨0, _⟩ => rfl | ⟨1, _⟩ => rfl)
theorem lidx53 (r : Fin 100000) (e : Fin 40) (k : Fin 128) : lidx_main_v53 (ix2 r e) k = ix2 r k :=
  funext fun a => Fin.ext (by match a with | ⟨0, _⟩ => rfl | ⟨1, _⟩ => rfl)
theorem ridx53 (r : Fin 100000) (e : Fin 40) (k : Fin 128) : ridx_main_v53 (ix2 r e) k = ix2 k e :=
  funext fun a => Fin.ext (by match a with | ⟨0, _⟩ => rfl | ⟨1, _⟩ => rfl)
theorem idx46_47 (r : Fin 100000) (k : Fin 128) : idx_main_v46 (idx_main_v47 (ix2 r k)) = ix1 r :=
  funext fun a => Fin.ext (by match a with | ⟨0, _⟩ => rfl)
theorem idx50_51 (r : Fin 100000) (e : Fin 40) : idx_main_v50 (idx_main_v51 (ix2 r e)) = ix1 e :=
  funext fun a => Fin.ext (by match a with | ⟨0, _⟩ => rfl)
theorem idx58_59 (r : Fin 100000) (e : Fin 40) : idx_main_v58 (idx_main_v59 (ix2 r e)) = ix1 r :=
  funext fun a => Fin.ext (by match a with | ⟨0, _⟩ => rfl)
theorem idx63_64 (r : Fin 100000) (e : Fin 40) : idx_main_v63 (idx_main_v64 (ix2 r e)) = ix1 r :=
  funext fun a => Fin.ext (by match a with | ⟨0, _⟩ => rfl)
theorem idx62 (r : Fin 100000) (k : Fin 40) : idx_main_v62 (ix1 r) k = ix2 r k :=
  funext fun a => Fin.ext (by match a with | ⟨0, _⟩ => rfl | ⟨1, _⟩ => rfl)

/-! ## The hidden layer -/

/-- Stage v29 at (r, e): the linear part of the first layer, clipped below at the value of the zero pattern. -/
theorem ref_hidden (x0 : (⟨S100000x128, .f32⟩ : BufTy).Contents (Elt Ideal)) (x1 : (⟨S2x1600000, .i32⟩ : BufTy).Contents (Elt Ideal))
    (x2 x3 : (⟨S128x128, .f32⟩ : BufTy).Contents (Elt Ideal)) (x4 : (⟨S128, .f32⟩ : BufTy).Contents (Elt Ideal)) (r : Fin 100000) (e : Fin 128) :
    val_main_v29 (F := Ideal) x0 x1 x2 x3 x4 (ix2 r e)
      = Cert.Sage.hidden (val_main_v13 (F := Ideal) x0 x1) x0 (fun q => val_main_v19 (F := Ideal) x1 (ix1 q)) x2 x3 (fun k => x4 (ix1 k)) r e := by
  rw [val_main_v29_apply, val_main_v28_apply, val_main_v26_apply, val_main_v23_apply, val_main_v25_apply, val_main_v24_apply,
    val_main_v27_apply, val_main_call0_v0_apply, val_main_call0_cst_apply, idx24_25]
  have h1 : ∀ k : Fin 128, val_main_v22 (F := Ideal) x0 x1 (lidx_main_v23 (ix2 r e) k) * x2 (ridx_main_v23 (ix2 r e) k)
      = Ideal.div (val_main_v13 (F := Ideal) x0 x1 (ix2 r k)) (val_main_v19 (F := Ideal) x1 (ix1 r)) * x2 (ix2 k e) := fun k => by
    rw [lidx23, ridx23, val_main_v22_apply, val_main_v21_apply, val_main_v20_apply, idx20_21]; rfl
  have h2 : ∀ k : Fin 128, x0 (lidx_main_v27 (ix2 r e) k) * x3 (ridx_main_v27 (ix2 r e) k) = x0 (ix2 r k) * x3 (ix2 k e) := fun k => by
    rw [lidx27, ridx27]
  rw [Finset.sum_congr rfl (fun k _ => h1 k), Finset.sum_congr rfl (fun k _ => h2 k), Ideal.maximumf_def, Ideal.addf_def, Ideal.addf_def,
    Ideal.ofBits_def]
  unfold Cert.Sage.hidden
  rw [← Cert.Sage.lin_eq]

/-! ## The output layer -/

/-- The output layer's linear part: stage v54 at (r, e). -/
theorem ref_lin (x0 : (⟨S100000x128, .f32⟩ : BufTy).Contents (Elt Ideal)) (x1 : (⟨S2x1600000, .i32⟩ : BufTy).Contents (Elt Ideal))
    (x2 x3 : (⟨S128x128, .f32⟩ : BufTy).Contents (Elt Ideal)) (x4 : (⟨S128, .f32⟩ : BufTy).Contents (Elt Ideal))
    (x5 x6 : (⟨S128x40, .f32⟩ : BufTy).Contents (Elt Ideal)) (x7 : (⟨S40, .f32⟩ : BufTy).Contents (Elt Ideal)) (r : Fin 100000) (e : Fin 40) :
    val_main_v54 (F := Ideal) x0 x1 x2 x3 x4 x5 x6 x7 (ix2 r e)
      = Cert.Sage.lin (val_main_v39 (F := Ideal) x0 x1 x2 x3 x4) (val_main_v29 (F := Ideal) x0 x1 x2 x3 x4)
          (fun q => val_main_v45 (F := Ideal) x1 (ix1 q)) x5 x6 (fun k => x7 (ix1 k)) r e := by
  rw [val_main_v54_apply, val_main_v52_apply, val_main_v49_apply, val_main_v51_apply, val_main_v50_apply,
    val_main_v53_apply, idx50_51]
  have h1 : ∀ k : Fin 128, val_main_v48 (F := Ideal) x0 x1 x2 x3 x4 (lidx_main_v49 (ix2 r e) k) * x5 (ridx_main_v49 (ix2 r e) k)
      = Ideal.div (val_main_v39 (F := Ideal) x0 x1 x2 x3 x4 (ix2 r k)) (val_main_v45 (F := Ideal) x1 (ix1 r)) * x5 (ix2 k e) := fun k => by
    rw [lidx49, ridx49, val_main_v48_apply, val_main_v47_apply, val_main_v46_apply, idx46_47]; rfl
  have h2 : ∀ k : Fin 128, val_main_v29 (F := Ideal) x0 x1 x2 x3 x4 (lidx_main_v53 (ix2 r e) k) * x6 (ridx_main_v53 (ix2 r e) k)
      = val_main_v29 (F := Ideal) x0 x1 x2 x3 x4 (ix2 r k) * x6 (ix2 k e) := fun k => by
    rw [lidx53, ridx53]
  rw [Finset.sum_congr rfl (fun k _ => h1 k), Finset.sum_congr rfl (fun k _ => h2 k), Ideal.addf_def, Ideal.addf_def]
  rw [← Cert.Sage.lin_eq]

/-- The reduced index `r` with column `k` put back is (r, k). -/
theorem lift_ix2 (h : S100000x40.Reduces [1] S100000) (r : Fin 100000) (k : Fin 40) : h.lift (ix1 r) k = ix2 r k :=
  funext fun a => Fin.ext (by match a with | ⟨0, _⟩ => rfl | ⟨1, _⟩ => rfl)

/-- The host's reduce with a maximum body along a row of any [100000, 40] array, from the value of the pattern of minus
    infinity: the fold of max over the row's forty entries. -/
theorem hostMax_row (z : (⟨S100000x40, .f32⟩ : BufTy).Contents (Elt Ideal)) (r : Fin 100000) :
    Host.reduce (FloatOps.maximumf (F := Ideal) (φ := .f32)) z (val_main_cst_10 (F := Ideal)) reducesTo_S100000x40_S100000_d1 h_S_ (ix1 r)
      = Cert.Sage.rowmax (fun k => z (ix2 r k)) := by
  have h : S100000x40.Reduces [1] S100000 := by
    obtain ⟨h1, h2⟩ := reducesTo_S100000x40_S100000_d1
    exact ⟨h1, Nat.one_pos, h2⟩
  refine (Host.reduce_eq_fold_single FloatOps.maximumf _ _ reducesTo_S100000x40_S100000_d1 h h_S_ (ix1 r)).trans ?_
  have hf : (z ∘ h.lift (ix1 r)) = fun k : Fin 40 => z (ix2 r k) := funext fun k => congrArg z (lift_ix2 h r k)
  unfold Cert.Sage.rowmax
  exact congrArg (fun f => Finset.fold max (Ideal.ofBits .f32 0xFF800000#32) f (Finset.univ : Finset (Fin 40))) hf

/-- The row maximum: stage v57 at r is the fold of max over the row of the linear part. -/
theorem ref_rowmax (x0 : (⟨S100000x128, .f32⟩ : BufTy).Contents (Elt Ideal)) (x1 : (⟨S2x1600000, .i32⟩ : BufTy).Contents (Elt Ideal))
    (x2 x3 : (⟨S128x128, .f32⟩ : BufTy).Contents (Elt Ideal)) (x4 : (⟨S128, .f32⟩ : BufTy).Contents (Elt Ideal))
    (x5 x6 : (⟨S128x40, .f32⟩ : BufTy).Contents (Elt Ideal)) (x7 : (⟨S40, .f32⟩ : BufTy).Contents (Elt Ideal)) (r : Fin 100000) :
    val_main_v57 (F := Ideal) x0 x1 x2 x3 x4 x5 x6 x7 (ix1 r)
      = Cert.Sage.rowmax (fun k => Cert.Sage.lin (val_main_v39 (F := Ideal) x0 x1 x2 x3 x4) (val_main_v29 (F := Ideal) x0 x1 x2 x3 x4)
          (fun q => val_main_v45 (F := Ideal) x1 (ix1 q)) x5 x6 (fun k => x7 (ix1 k)) r k) := by
  have h55 : val_main_v55 (F := Ideal) x0 x1 x2 x3 x4 x5 x6 x7 (ix1 r)
      = Cert.Sage.rowmax (fun k => Cert.Sage.lin (val_main_v39 (F := Ideal) x0 x1 x2 x3 x4) (val_main_v29 (F := Ideal) x0 x1 x2 x3 x4)
          (fun q => val_main_v45 (F := Ideal) x1 (ix1 q)) x5 x6 (fun k => x7 (ix1 k)) r k) := by
    unfold val_main_v55
    refine (hostMax_row _ r).trans ?_
    exact congrArg Cert.Sage.rowmax (funext fun k => ref_lin x0 x1 x2 x3 x4 x5 x6 x7 r k)
  rw [val_main_v57_apply, val_main_v56_apply, val_main_cst_11_apply, h55, Ideal.maximumf_def, Ideal.ofBits_def]
  exact Cert.Sage.max_init_rowmax _

/-- The shifted exponential: stage v61 at (r, e). -/
theorem ref_exp (x0 : (⟨S100000x128, .f32⟩ : BufTy).Contents (Elt Ideal)) (x1 : (⟨S2x1600000, .i32⟩ : BufTy).Contents (Elt Ideal))
    (x2 x3 : (⟨S128x128, .f32⟩ : BufTy).Contents (Elt Ideal)) (x4 : (⟨S128, .f32⟩ : BufTy).Contents (Elt Ideal))
    (x5 x6 : (⟨S128x40, .f32⟩ : BufTy).Contents (Elt Ideal)) (x7 : (⟨S40, .f32⟩ : BufTy).Contents (Elt Ideal)) (r : Fin 100000) (e : Fin 40) :
    val_main_v61 (F := Ideal) x0 x1 x2 x3 x4 x5 x6 x7 (ix2 r e)
      = Ideal.exp (Cert.Sage.lin (val_main_v39 (F := Ideal) x0 x1 x2 x3 x4) (val_main_v29 (F := Ideal) x0 x1 x2 x3 x4)
          (fun q => val_main_v45 (F := Ideal) x1 (ix1 q)) x5 x6 (fun k => x7 (ix1 k)) r e
          - Cert.Sage.rowmax (fun k => Cert.Sage.lin (val_main_v39 (F := Ideal) x0 x1 x2 x3 x4) (val_main_v29 (F := Ideal) x0 x1 x2 x3 x4)
          (fun q => val_main_v45 (F := Ideal) x1 (ix1 q)) x5 x6 (fun k => x7 (ix1 k)) r k)) := by
  rw [val_main_v61_apply, val_main_v60_apply, val_main_v59_apply, val_main_v58_apply, idx58_59, ref_rowmax, ref_lin,
    Ideal.hostUnary_exp_def, Ideal.subf_def]

/-- The output: stage v65 at (r, e) is the softmax of the linear part's row. -/
theorem ref_out (x0 : (⟨S100000x128, .f32⟩ : BufTy).Contents (Elt Ideal)) (x1 : (⟨S2x1600000, .i32⟩ : BufTy).Contents (Elt Ideal))
    (x2 x3 : (⟨S128x128, .f32⟩ : BufTy).Contents (Elt Ideal)) (x4 : (⟨S128, .f32⟩ : BufTy).Contents (Elt Ideal))
    (x5 x6 : (⟨S128x40, .f32⟩ : BufTy).Contents (Elt Ideal)) (x7 : (⟨S40, .f32⟩ : BufTy).Contents (Elt Ideal)) (r : Fin 100000) (e : Fin 40) :
    val_main_v65 (F := Ideal) x0 x1 x2 x3 x4 x5 x6 x7 (ix2 r e)
      = Cert.Sage.probs (val_main_v39 (F := Ideal) x0 x1 x2 x3 x4) (val_main_v29 (F := Ideal) x0 x1 x2 x3 x4)
          (fun q => val_main_v45 (F := Ideal) x1 (ix1 q)) x5 x6 (fun k => x7 (ix1 k)) r e := by
  have hs : ∀ k : Fin 40, val_main_v61 (F := Ideal) x0 x1 x2 x3 x4 x5 x6 x7 (idx_main_v62 (ix1 r) k)
      = Ideal.exp (Cert.Sage.lin (val_main_v39 (F := Ideal) x0 x1 x2 x3 x4) (val_main_v29 (F := Ideal) x0 x1 x2 x3 x4)
          (fun q => val_main_v45 (F := Ideal) x1 (ix1 q)) x5 x6 (fun k => x7 (ix1 k)) r k
          - Cert.Sage.rowmax (fun k => Cert.Sage.lin (val_main_v39 (F := Ideal) x0 x1 x2 x3 x4) (val_main_v29 (F := Ideal) x0 x1 x2 x3 x4)
          (fun q => val_main_v45 (F := Ideal) x1 (ix1 q)) x5 x6 (fun k => x7 (ix1 k)) r k)) := fun k => by
    rw [idx62, ref_exp]
  rw [val_main_v65_apply, val_main_v64_apply, val_main_v63_apply, idx63_64, val_main_v62_apply, val_main_cst_12_apply,
    Finset.sum_congr rfl (fun k _ => hs k), ref_exp, Ideal.ofBits_def, Ideal.ofBits_zero_f32, zero_add, Ideal.hostDivf_def]
  rw [Cert.Sage.probs, Cert.Sage.soft]

end Cert.ReferenceIdeal.RefValue

end
-- ==== Proof.SpecBlock.lean ====
/-
  A block of rows of the arrays computes the same function of its own rows: if row `p` of the block arrays is row
  `r` of the whole arrays (entry by entry for the aggregated and the root features, and for the degree), then the
  hidden layer and the output layer at `p` of the block are those at `r` of the whole.
-/
import proofs.«137908_j60816736911616_2_alg».proof.Proof.Spec

noncomputable section

open scoped BigOperators

namespace Cert.Sage

open Idealize.ShloMosaic Idealize.ShloMosaic.ValueIdx

theorem lin_block {R R' n : ℕ} {A X : (⟨2, ![R, 128]⟩ : Shape).Idx → EReal} {D : Fin R → EReal}
    {a x : (⟨2, ![R', 128]⟩ : Shape).Idx → EReal} {d : Fin R' → EReal}
    (Wl Wr : (⟨2, ![128, n]⟩ : Shape).Idx → EReal) (b : Fin n → EReal) (p : Fin R') (r : Fin R)
    (ha : ∀ k, a (ix2 p k) = A (ix2 r k)) (hx : ∀ k, x (ix2 p k) = X (ix2 r k)) (hd : d p = D r) (e : Fin n) :
    lin a x d Wl Wr b p e = lin A X D Wl Wr b r e := by
  unfold lin
  simp only [ha, hx, hd]

theorem hidden_block {R R' : ℕ} {A X : (⟨2, ![R, 128]⟩ : Shape).Idx → EReal} {D : Fin R → EReal}
    {a x : (⟨2, ![R', 128]⟩ : Shape).Idx → EReal} {d : Fin R' → EReal}
    (Wl Wr : (⟨2, ![128, 128]⟩ : Shape).Idx → EReal) (b : Fin 128 → EReal) (p : Fin R') (r : Fin R)
    (ha : ∀ k, a (ix2 p k) = A (ix2 r k)) (hx : ∀ k, x (ix2 p k) = X (ix2 r k)) (hd : d p = D r) (e : Fin 128) :
    hidden a x d Wl Wr b p e = hidden A X D Wl Wr b r e := by
  unfold hidden
  rw [lin_block Wl Wr b p r ha hx hd e]

theorem probs_block {R R' : ℕ} {A X : (⟨2, ![R, 128]⟩ : Shape).Idx → EReal} {D : Fin R → EReal}
    {a x : (⟨2, ![R', 128]⟩ : Shape).Idx → EReal} {d : Fin R' → EReal}
    (Wl Wr : (⟨2, ![128, 40]⟩ : Shape).Idx → EReal) (b : Fin 40 → EReal) (p : Fin R') (r : Fin R)
    (ha : ∀ k, a (ix2 p k) = A (ix2 r k)) (hx : ∀ k, x (ix2 p k) = X (ix2 r k)) (hd : d p = D r) (e : Fin 40) :
    probs a x d Wl Wr b p e = probs A X D Wl Wr b r e := by
  unfold probs
  rw [show (fun k => lin a x d Wl Wr b p k) = fun k => lin A X D Wl Wr b r k from
    funext fun k => lin_block Wl Wr b p r ha hx hd k]

end Cert.Sage

end
-- ==== Proof.HiddenLayer.lean ====
/-
  The hidden layer's launch: what the launch leaves in its output array.  The array is cut into 25 blocks of 4000 rows; point `t`
  of the grid reads block `t` of the aggregated features, of the root features and of the degree column, and the
  whole weight matrices and bias row, and writes back block `t` of the output.  The body's arithmetic at row `p` of
  a block is the specification at that row of the block arrays, and row `p` of block `t` is row `4000 · t + p` of
  the whole arrays; so every point writes back its block of ONE function of the arrays as the launch found them,
  and the 25 blocks cover the array.
-/
import proofs.«137908_j60816736911616_2_alg».proof.Proof.Gen.KernelIdeal.Frame
import proofs.«137908_j60816736911616_2_alg».proof.Proof.SpecBlock
import Idealize.ShloMosaic.Lib.Pipeline.Value
import Idealize.ShloMosaic.Lib.ValueIdx

set_option maxRecDepth 16384

noncomputable section

namespace Cert.KernelIdeal.HiddenLayer

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-- The body's arithmetic at row `p`, feature `e` of a block is the specification of the block arrays there. -/
abbrev BodyIs : Prop :=
  ∀ (v0 : Vec Ideal S4000x128 .f32) (v2 : Vec Ideal S4000x1 .f32) (v7 : Vec Ideal S4000x128 .bf16)
    (v9 v11 : Vec Ideal S128x128 .f32) (v16 : Vec Ideal S1x128 .f32) (p : Fin 4000) (e : Fin 128),
    k0_pay1 (F := Ideal) v0 v2 v7 v9 v11 v16 (ix2 p e)
      = Cert.Sage.hidden v0 v7 (fun q => v2 (ix2 q (0 : Fin 1))) v9 v11 (fun k => v16 (ix2 (0 : Fin 1) k)) p e

/-- The output array as one function of the six arrays the launch reads: the aggregated features, the root features,
    the degree column, the two weight matrices and the bias row. -/
def outArr (A : S100000x128.Idx → EReal) (X : S100000x128.Idx → EReal) (D : S100000x1.Idx → EReal)
    (Wl Wr : S128x128.Idx → EReal) (b : S1x128.Idx → EReal) : S100000x128.Idx → EReal :=
  fun i => Cert.Sage.hidden A X (fun q => D (ix2 q (0 : Fin 1))) Wl Wr (fun k => b (ix2 (0 : Fin 1) k)) (i 0) (i 1)

/-- One entry of a block: if the block arrays are block `T` of the whole arrays (rows `4000 · T …`), the weights and
    the bias the whole ones, then the body's value at an entry of the block is the output function at the entry's
    place in the whole array. -/
theorem point (hpay : BodyIs)
    (A : S100000x128.Idx → EReal) (X : S100000x128.Idx → EReal) (D : S100000x1.Idx → EReal)
    (Wl Wr : S128x128.Idx → EReal) (b : S1x128.Idx → EReal)
    (x0 : Vec Ideal S4000x128 .f32) (x1 : Vec Ideal S4000x128 .bf16) (x2 : Vec Ideal S4000x1 .f32)
    (x3 x4 : Vec Ideal S128x128 .f32) (x5 : Vec Ideal S1x128 .f32) (T : ℕ)
    (h0 : ∀ (y : S4000x128.Idx) (i : S100000x128.Idx), (i 0).val = T * 4000 + (y 0).val → (i 1).val = (y 1).val → x0 y = A i)
    (h1 : ∀ (y : S4000x128.Idx) (i : S100000x128.Idx), (i 0).val = T * 4000 + (y 0).val → (i 1).val = (y 1).val → x1 y = X i)
    (h2 : ∀ (y : S4000x1.Idx) (i : S100000x1.Idx), (i 0).val = T * 4000 + (y 0).val → x2 y = D i)
    (h3 : x3 = Wl) (h4 : x4 = Wr) (h5 : x5 = b)
    (y : S4000x128.Idx) (i : S100000x128.Idx) (hi0 : (i 0).val = T * 4000 + (y 0).val) (hi1 : (i 1).val = (y 1).val) :
    k0_pay1 (F := Ideal) x0 x2 x1 x3 x4 x5 y = outArr A X D Wl Wr b i := by
  subst h3 h4 h5
  obtain ⟨p, e, rfl⟩ : ∃ (p : Fin 4000) (e : Fin 128), y = ix2 p e := ⟨y 0, y 1, eq_ix2 y⟩
  obtain ⟨r, e', rfl⟩ : ∃ (r : Fin 100000) (e' : Fin 128), i = ix2 r e' := ⟨i 0, i 1, eq_ix2 i⟩
  have he : e' = e := Fin.ext hi1
  subst he
  rw [hpay]
  unfold outArr
  exact Cert.Sage.hidden_block x3 x4 _ p r (fun k => h0 (ix2 p k) (ix2 r k) hi0 rfl)
    (fun k => h1 (ix2 p k) (ix2 r k) hi0 rfl) (h2 (ix2 p (0 : Fin 1)) (ix2 r (0 : Fin 1)) hi0) e'

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the grid: the three row-blocked inputs and the output move with the point, the weights
    and the bias stay. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- What point `t` writes back is block `t` of the output function of the arrays as the launch finds them. -/
theorem flushed_eq (hpay : BodyIs) (c : Dev nD) (t : Fin cfg0.N) :
    (dat0 V c).flushed 6 t = ((cfg0.win 6).blk t).view.read (Elt Ideal)
      (outArr (V c main_v22) (V c main_v11) (V c main_v10) (V c main_arg2) (V c main_arg3) (V c main_v23)) := by
  show (cfg0.win 6).cut (grid0.coords t) ((dat0 V c).after 6 t) = _
  rw [after0_6]
  unfold out0_6
  rw [View.canon_unit_zero zero_offsets]
  simp only [View.ld_unit_zero (S := S4000x128) zero_offsets, View.ld_unit_zero (S := S4000x1) zero_offsets,
    View.ld_unit_zero (S := S128x128) zero_offsets, View.ld_unit_zero (S := S1x128) zero_offsets]
  obtain ⟨f00, f01, f10, f11, f20, f21, f30, f31, f40, f41, f50, f51, f60, f61⟩ := idx_facts t
  funext j
  show k0_pay1 (iblk0 V c 0 t) (iblk0 V c 2 t) (iblk0 V c 1 t) (iblk0 V c 3 t) (iblk0 V c 4 t) (iblk0 V c 5 t) j
    = outArr (V c main_v22) (V c main_v11) (V c main_v10) (V c main_arg2) (V c main_arg3) (V c main_v23) (((cfg0.win 6).blk t).view.emb j)
  refine point hpay (V c main_v22) (V c main_v11) (V c main_v10) (V c main_arg2) (V c main_arg3) (V c main_v23)
    (iblk0 V c 0 t) (iblk0 V c 1 t) (iblk0 V c 2 t) (iblk0 V c 3 t) (iblk0 V c 4 t) (iblk0 V c 5 t) t.val
    ?_ ?_ ?_ ?_ ?_ ?_ j (((cfg0.win 6).blk t).view.emb j) ?_ ?_
  · intro y i e0 e1
    show V c main_v22 (((cfg0.win 0).blk t).view.emb y) = V c main_v22 i
    refine congrArg (V c main_v22) (funext fun a => Fin.ext ?_)
    match a with
    | ⟨0, _⟩ => show win0_0.index t (0 : Fin 2) * 4000 + 1 * (y 0).val = (i 0).val; omega
    | ⟨1, _⟩ => show win0_0.index t (1 : Fin 2) * 128 + 1 * (y 1).val = (i 1).val; omega
  · intro y i e0 e1
    show V c main_v11 (((cfg0.win 1).blk t).view.emb y) = V c main_v11 i
    refine congrArg (V c main_v11) (funext fun a => Fin.ext ?_)
    match a with
    | ⟨0, _⟩ => show win0_1.index t (0 : Fin 2) * 4000 + 1 * (y 0).val = (i 0).val; omega
    | ⟨1, _⟩ => show win0_1.index t (1 : Fin 2) * 128 + 1 * (y 1).val = (i 1).val; omega
  · intro y i e0
    show V c main_v10 (((cfg0.win 2).blk t).view.emb y) = V c main_v10 i
    refine congrArg (V c main_v10) (funext fun a => Fin.ext ?_)
    match a with
    | ⟨0, _⟩ => show win0_2.index t (0 : Fin 2) * 4000 + 1 * (y 0).val = (i 0).val; omega
    | ⟨1, _⟩ =>
      show win0_2.index t (1 : Fin 2) * 1 + 1 * (y 1).val = (i 1).val
      have hy : (y 1).val < 1 := (y 1).isLt
      have hi : (i 1).val < 1 := (i 1).isLt
      omega
  · funext y
    show V c main_arg2 (((cfg0.win 3).blk t).view.emb y) = V c main_arg2 y
    refine congrArg (V c main_arg2) (funext fun a => Fin.ext ?_)
    match a with
    | ⟨0, _⟩ => show win0_3.index t (0 : Fin 2) * 128 + 1 * (y 0).val = (y 0).val; omega
    | ⟨1, _⟩ => show win0_3.index t (1 : Fin 2) * 128 + 1 * (y 1).val = (y 1).val; omega
  · funext y
    show V c main_arg3 (((cfg0.win 4).blk t).view.emb y) = V c main_arg3 y
    refine congrArg (V c main_arg3) (funext fun a => Fin.ext ?_)
    match a with
    | ⟨0, _⟩ => show win0_4.index t (0 : Fin 2) * 128 + 1 * (y 0).val = (y 0).val; omega
    | ⟨1, _⟩ => show win0_4.index t (1 : Fin 2) * 128 + 1 * (y 1).val = (y 1).val; omega
  · funext y
    show V c main_v23 (((cfg0.win 5).blk t).view.emb y) = V c main_v23 y
    refine congrArg (V c main_v23) (funext fun a => Fin.ext ?_)
    match a with
    | ⟨0, _⟩ => show win0_5.index t (0 : Fin 2) * 1 + 1 * (y 0).val = (y 0).val; omega
    | ⟨1, _⟩ => show win0_5.index t (1 : Fin 2) * 128 + 1 * (y 1).val = (y 1).val; omega
  · show win0_6.index t (0 : Fin 2) * 4000 + 1 * (j 0).val = t.val * 4000 + (j 0).val; omega
  · show win0_6.index t (1 : Fin 2) * 128 + 1 * (j 1).val = (j 1).val; omega

/-- An index of the output array is in point `t`'s block iff each coordinate is in the block's range on its axis. -/
theorem mem_blk (t : Fin cfg0.N) (i : S100000x128.Idx) :
    i ∈ ((cfg0.win 6).blk t).view.set ↔ ∀ a : Fin 2, win0_6.index t a * S4000x128.size a ≤ (i a).val
      ∧ (i a).val < win0_6.index t a * S4000x128.size a + S4000x128.size a := by
  show i ∈ ((View.whole main_v24).slice (win0_6.rect t)).set ↔ _
  rw [View.set_slice_whole, Rect.mem_set_unit]
  exact Iff.rfl

/-- Row `r` lies in the block of point `r / 4000`: the blocks cover the array. -/
theorem cover (i : S100000x128.Idx) :
    ∃ t : Fin cfg0.N, (cfg0.win 6).flush t = true ∧ i ∈ ((cfg0.win 6).blk t).view.set := by
  have hN : grid0.N = 25 := N_0
  have hi0 : (i 0).val < 100000 := (i 0).isLt
  have hi1 : (i 1).val < 128 := (i 1).isLt
  let t : Fin cfg0.N := ⟨(i 0).val / 4000, by show (i 0).val / 4000 < grid0.N; omega⟩
  refine ⟨t, flush0_6 t, ?_⟩
  rw [mem_blk]
  obtain ⟨f00, f01, f10, f11, f20, f21, f30, f31, f40, f41, f50, f51, f60, f61⟩ := idx_facts t
  have ht : t.val = (i 0).val / 4000 := rfl
  intro a
  match a with
  | ⟨0, _⟩ =>
    show win0_6.index t (0 : Fin 2) * 4000 ≤ (i 0).val ∧ (i 0).val < win0_6.index t (0 : Fin 2) * 4000 + 4000
    omega
  | ⟨1, _⟩ =>
    show win0_6.index t (1 : Fin 2) * 128 ≤ (i 1).val ∧ (i 1).val < win0_6.index t (1 : Fin 2) * 128 + 128
    omega

/-- The output array after the launch: the output function of the arrays as the launch found them. -/
theorem final (hpay : BodyIs) (c : Dev nD) :
    (dat0 V c).arrAt 6 cfg0.N
      = outArr (V c main_v22) (V c main_v11) (V c main_v10) (V c main_arg2) (V c main_arg3) (V c main_v23) :=
  (dat0 V c).arrAt_eq_of_cover 6 _ (fun t _ => flushed_eq V hpay c t) cover

end Cert.KernelIdeal.HiddenLayer

end
-- ==== Proof.OutLayer.lean ====
/-
  The output layer's launch: what the launch leaves in its output array.  The array is cut into 25 blocks of 4000 rows; point `t`
  of the grid reads block `t` of the aggregated features, of the root features and of the degree column, and the
  whole weight matrices and bias row, and writes back block `t` of the output.  The body's arithmetic at row `p` of
  a block is the specification at that row of the block arrays, and row `p` of block `t` is row `4000 · t + p` of
  the whole arrays; so every point writes back its block of ONE function of the arrays as the launch found them,
  and the 25 blocks cover the array.
-/
import proofs.«137908_j60816736911616_2_alg».proof.Proof.Gen.KernelIdeal.Frame
import proofs.«137908_j60816736911616_2_alg».proof.Proof.SpecBlock
import Idealize.ShloMosaic.Lib.Pipeline.Value
import Idealize.ShloMosaic.Lib.ValueIdx

set_option maxRecDepth 16384

noncomputable section

namespace Cert.KernelIdeal.OutLayer

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-- The body's arithmetic at row `p`, feature `e` of a block is the specification of the block arrays there. -/
abbrev BodyIs : Prop :=
  ∀ (v0 : Vec Ideal S4000x128 .f32) (v2 : Vec Ideal S4000x1 .f32) (v7 : Vec Ideal S4000x128 .bf16)
    (v9 v11 : Vec Ideal S128x40 .f32) (v16 : Vec Ideal S1x40 .f32) (p : Fin 4000) (e : Fin 40),
    k1_pay1 (F := Ideal) v0 v2 v7 v9 v11 v16 (ix2 p e)
      = Cert.Sage.probs v0 v7 (fun q => v2 (ix2 q (0 : Fin 1))) v9 v11 (fun k => v16 (ix2 (0 : Fin 1) k)) p e

/-- The output array as one function of the six arrays the launch reads: the aggregated features, the root features,
    the degree column, the two weight matrices and the bias row. -/
def outArr (A : S100000x128.Idx → EReal) (X : S100000x128.Idx → EReal) (D : S100000x1.Idx → EReal)
    (Wl Wr : S128x40.Idx → EReal) (b : S1x40.Idx → EReal) : S100000x40.Idx → EReal :=
  fun i => Cert.Sage.probs A X (fun q => D (ix2 q (0 : Fin 1))) Wl Wr (fun k => b (ix2 (0 : Fin 1) k)) (i 0) (i 1)

/-- One entry of a block: if the block arrays are block `T` of the whole arrays (rows `4000 · T …`), the weights and
    the bias the whole ones, then the body's value at an entry of the block is the output function at the entry's
    place in the whole array. -/
theorem point (hpay : BodyIs)
    (A : S100000x128.Idx → EReal) (X : S100000x128.Idx → EReal) (D : S100000x1.Idx → EReal)
    (Wl Wr : S128x40.Idx → EReal) (b : S1x40.Idx → EReal)
    (x0 : Vec Ideal S4000x128 .f32) (x1 : Vec Ideal S4000x128 .bf16) (x2 : Vec Ideal S4000x1 .f32)
    (x3 x4 : Vec Ideal S128x40 .f32) (x5 : Vec Ideal S1x40 .f32) (T : ℕ)
    (h0 : ∀ (y : S4000x128.Idx) (i : S100000x128.Idx), (i 0).val = T * 4000 + (y 0).val → (i 1).val = (y 1).val → x0 y = A i)
    (h1 : ∀ (y : S4000x128.Idx) (i : S100000x128.Idx), (i 0).val = T * 4000 + (y 0).val → (i 1).val = (y 1).val → x1 y = X i)
    (h2 : ∀ (y : S4000x1.Idx) (i : S100000x1.Idx), (i 0).val = T * 4000 + (y 0).val → x2 y = D i)
    (h3 : x3 = Wl) (h4 : x4 = Wr) (h5 : x5 = b)
    (y : S4000x40.Idx) (i : S100000x40.Idx) (hi0 : (i 0).val = T * 4000 + (y 0).val) (hi1 : (i 1).val = (y 1).val) :
    k1_pay1 (F := Ideal) x0 x2 x1 x3 x4 x5 y = outArr A X D Wl Wr b i := by
  subst h3 h4 h5
  obtain ⟨p, e, rfl⟩ : ∃ (p : Fin 4000) (e : Fin 40), y = ix2 p e := ⟨y 0, y 1, eq_ix2 y⟩
  obtain ⟨r, e', rfl⟩ : ∃ (r : Fin 100000) (e' : Fin 40), i = ix2 r e' := ⟨i 0, i 1, eq_ix2 i⟩
  have he : e' = e := Fin.ext hi1
  subst he
  rw [hpay]
  unfold outArr
  exact Cert.Sage.probs_block x3 x4 _ p r (fun k => h0 (ix2 p k) (ix2 r k) hi0 rfl)
    (fun k => h1 (ix2 p k) (ix2 r k) hi0 rfl) (h2 (ix2 p (0 : Fin 1)) (ix2 r (0 : Fin 1)) hi0) e'

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the grid: the three row-blocked inputs and the output move with the point, the weights
    and the bias stay. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- What point `t` writes back is block `t` of the output function of the arrays as the launch finds them. -/
theorem flushed_eq (hpay : BodyIs) (c : Dev nD) (t : Fin cfg1.N) :
    (dat1 V c).flushed 6 t = ((cfg1.win 6).blk t).view.read (Elt Ideal)
      (outArr (V c main_v35) (V c main_v24) (V c main_v10) (V c main_arg5) (V c main_arg6) (V c main_v36)) := by
  show (cfg1.win 6).cut (grid1.coords t) ((dat1 V c).after 6 t) = _
  rw [after1_6]
  unfold out1_6
  rw [View.canon_unit_zero zero_offsets]
  simp only [View.ld_unit_zero (S := S4000x128) zero_offsets, View.ld_unit_zero (S := S4000x1) zero_offsets,
    View.ld_unit_zero (S := S128x40) zero_offsets, View.ld_unit_zero (S := S1x40) zero_offsets]
  obtain ⟨f00, f01, f10, f11, f20, f21, f30, f31, f40, f41, f50, f51, f60, f61⟩ := idx_facts t
  funext j
  show k1_pay1 (iblk1 V c 0 t) (iblk1 V c 2 t) (iblk1 V c 1 t) (iblk1 V c 3 t) (iblk1 V c 4 t) (iblk1 V c 5 t) j
    = outArr (V c main_v35) (V c main_v24) (V c main_v10) (V c main_arg5) (V c main_arg6) (V c main_v36) (((cfg1.win 6).blk t).view.emb j)
  refine point hpay (V c main_v35) (V c main_v24) (V c main_v10) (V c main_arg5) (V c main_arg6) (V c main_v36)
    (iblk1 V c 0 t) (iblk1 V c 1 t) (iblk1 V c 2 t) (iblk1 V c 3 t) (iblk1 V c 4 t) (iblk1 V c 5 t) t.val
    ?_ ?_ ?_ ?_ ?_ ?_ j (((cfg1.win 6).blk t).view.emb j) ?_ ?_
  · intro y i e0 e1
    show V c main_v35 (((cfg1.win 0).blk t).view.emb y) = V c main_v35 i
    refine congrArg (V c main_v35) (funext fun a => Fin.ext ?_)
    match a with
    | ⟨0, _⟩ => show win1_0.index t (0 : Fin 2) * 4000 + 1 * (y 0).val = (i 0).val; omega
    | ⟨1, _⟩ => show win1_0.index t (1 : Fin 2) * 128 + 1 * (y 1).val = (i 1).val; omega
  · intro y i e0 e1
    show V c main_v24 (((cfg1.win 1).blk t).view.emb y) = V c main_v24 i
    refine congrArg (V c main_v24) (funext fun a => Fin.ext ?_)
    match a with
    | ⟨0, _⟩ => show win1_1.index t (0 : Fin 2) * 4000 + 1 * (y 0).val = (i 0).val; omega
    | ⟨1, _⟩ => show win1_1.index t (1 : Fin 2) * 128 + 1 * (y 1).val = (i 1).val; omega
  · intro y i e0
    show V c main_v10 (((cfg1.win 2).blk t).view.emb y) = V c main_v10 i
    refine congrArg (V c main_v10) (funext fun a => Fin.ext ?_)
    match a with
    | ⟨0, _⟩ => show win1_2.index t (0 : Fin 2) * 4000 + 1 * (y 0).val = (i 0).val; omega
    | ⟨1, _⟩ =>
      show win1_2.index t (1 : Fin 2) * 1 + 1 * (y 1).val = (i 1).val
      have hy : (y 1).val < 1 := (y 1).isLt
      have hi : (i 1).val < 1 := (i 1).isLt
      omega
  · funext y
    show V c main_arg5 (((cfg1.win 3).blk t).view.emb y) = V c main_arg5 y
    refine congrArg (V c main_arg5) (funext fun a => Fin.ext ?_)
    match a with
    | ⟨0, _⟩ => show win1_3.index t (0 : Fin 2) * 128 + 1 * (y 0).val = (y 0).val; omega
    | ⟨1, _⟩ => show win1_3.index t (1 : Fin 2) * 40 + 1 * (y 1).val = (y 1).val; omega
  · funext y
    show V c main_arg6 (((cfg1.win 4).blk t).view.emb y) = V c main_arg6 y
    refine congrArg (V c main_arg6) (funext fun a => Fin.ext ?_)
    match a with
    | ⟨0, _⟩ => show win1_4.index t (0 : Fin 2) * 128 + 1 * (y 0).val = (y 0).val; omega
    | ⟨1, _⟩ => show win1_4.index t (1 : Fin 2) * 40 + 1 * (y 1).val = (y 1).val; omega
  · funext y
    show V c main_v36 (((cfg1.win 5).blk t).view.emb y) = V c main_v36 y
    refine congrArg (V c main_v36) (funext fun a => Fin.ext ?_)
    match a with
    | ⟨0, _⟩ => show win1_5.index t (0 : Fin 2) * 1 + 1 * (y 0).val = (y 0).val; omega
    | ⟨1, _⟩ => show win1_5.index t (1 : Fin 2) * 40 + 1 * (y 1).val = (y 1).val; omega
  · show win1_6.index t (0 : Fin 2) * 4000 + 1 * (j 0).val = t.val * 4000 + (j 0).val; omega
  · show win1_6.index t (1 : Fin 2) * 40 + 1 * (j 1).val = (j 1).val; omega

/-- An index of the output array is in point `t`'s block iff each coordinate is in the block's range on its axis. -/
theorem mem_blk (t : Fin cfg1.N) (i : S100000x40.Idx) :
    i ∈ ((cfg1.win 6).blk t).view.set ↔ ∀ a : Fin 2, win1_6.index t a * S4000x40.size a ≤ (i a).val
      ∧ (i a).val < win1_6.index t a * S4000x40.size a + S4000x40.size a := by
  show i ∈ ((View.whole main_v37).slice (win1_6.rect t)).set ↔ _
  rw [View.set_slice_whole, Rect.mem_set_unit]
  exact Iff.rfl

/-- Row `r` lies in the block of point `r / 4000`: the blocks cover the array. -/
theorem cover (i : S100000x40.Idx) :
    ∃ t : Fin cfg1.N, (cfg1.win 6).flush t = true ∧ i ∈ ((cfg1.win 6).blk t).view.set := by
  have hN : grid1.N = 25 := N_1
  have hi0 : (i 0).val < 100000 := (i 0).isLt
  have hi1 : (i 1).val < 40 := (i 1).isLt
  let t : Fin cfg1.N := ⟨(i 0).val / 4000, by show (i 0).val / 4000 < grid1.N; omega⟩
  refine ⟨t, flush1_6 t, ?_⟩
  rw [mem_blk]
  obtain ⟨f00, f01, f10, f11, f20, f21, f30, f31, f40, f41, f50, f51, f60, f61⟩ := idx_facts t
  have ht : t.val = (i 0).val / 4000 := rfl
  intro a
  match a with
  | ⟨0, _⟩ =>
    show win1_6.index t (0 : Fin 2) * 4000 ≤ (i 0).val ∧ (i 0).val < win1_6.index t (0 : Fin 2) * 4000 + 4000
    omega
  | ⟨1, _⟩ =>
    show win1_6.index t (1 : Fin 2) * 40 ≤ (i 1).val ∧ (i 1).val < win1_6.index t (1 : Fin 2) * 40 + 40
    omega

/-- The output array after the launch: the output function of the arrays as the launch found them. -/
theorem final (hpay : BodyIs) (c : Dev nD) :
    (dat1 V c).arrAt 6 cfg1.N
      = outArr (V c main_v35) (V c main_v24) (V c main_v10) (V c main_arg5) (V c main_arg6) (V c main_v36) :=
  (dat1 V c).arrAt_eq_of_cover 6 _ (fun t _ => flushed_eq V hpay c t) cover

end Cert.KernelIdeal.OutLayer

end
-- ==== Proof.Glue.lean ====
/-
  The kernel program's result is the reference's.  Around its two launches the kernel program runs the same host
  operations as the reference: the edge list's two rows, the in-degrees (a scatter-add of ones, clipped below at
  one), and per layer the gather of the source nodes' feature rows and their scatter-add into the destination
  nodes.  On the extended reals a change of float format is the identity, so what the first launch finds in its
  operands are the reference's own intermediate arrays: the neighbour sums of the inputs, the inputs, the degree as
  a column, the first layer's weights and its bias as a row.  The first launch leaves the hidden layer of these,
  which is the reference's hidden array (the bias is added after the root term instead of before it: addition
  commutes and associates).  The second stretch gathers and sums the hidden rows exactly as the reference does, so
  the second launch finds the reference's second-layer neighbour sums, the hidden array, the degree column and the
  second layer's weights and bias row, and leaves their row softmax: the reference's result.
-/
import proofs.«137908_j60816736911616_2_alg».proof.Proof.Gen.KernelIdeal.Frame
import proofs.«137908_j60816736911616_2_alg».proof.Proof.Gen.ReferenceIdeal.Read
import proofs.«137908_j60816736911616_2_alg».proof.Proof.HiddenLayer
import proofs.«137908_j60816736911616_2_alg».proof.Proof.OutLayer
import proofs.«137908_j60816736911616_2_alg».proof.Proof.LibRowwise
import Idealize.ShloMosaic.Lib.StableHlo.Run
import Idealize.ShloMosaic.Lib.ValueLayout

set_option maxRecDepth 16384

noncomputable section

namespace Cert.KernelIdeal.Glue

open Cert.KernelIdeal Cert.KernelIdeal.Gen
open Idealize.ShloMosaic Idealize.ShloMosaic.TcCoe Idealize.ShloMosaic.StableHlo Idealize.ShloMosaic.ValueIdx
open Idealize.SL.Sem
open Cert.ReferenceIdeal.Read (val_main_v1 val_main_v3 val_main_v13 val_main_v19 val_main_v29 val_main_v39 val_main_v45 val_main_v65)

/-- The reference's hidden array, read at an entry, is the hidden layer of its neighbour sums, its inputs and its degrees. -/
abbrev RefHidden : Prop :=
  ∀ (x0 : (⟨Cert.ReferenceIdeal.S100000x128, .f32⟩ : BufTy).Contents (Elt Ideal))
    (x1 : (⟨Cert.ReferenceIdeal.S2x1600000, .i32⟩ : BufTy).Contents (Elt Ideal))
    (x2 x3 : (⟨Cert.ReferenceIdeal.S128x128, .f32⟩ : BufTy).Contents (Elt Ideal))
    (x4 : (⟨Cert.ReferenceIdeal.S128, .f32⟩ : BufTy).Contents (Elt Ideal)) (r : Fin 100000) (e : Fin 128),
    val_main_v29 (F := Ideal) x0 x1 x2 x3 x4 (ix2 r e)
      = Cert.Sage.hidden (val_main_v13 (F := Ideal) x0 x1) x0 (fun q => val_main_v19 (F := Ideal) x1 (ix1 q)) x2 x3
          (fun k => x4 (ix1 k)) r e

/-- The reference's result, read at an entry, is the output layer of its second neighbour sums, its hidden array and its
    degrees. -/
abbrev RefOut : Prop :=
  ∀ (x0 : (⟨Cert.ReferenceIdeal.S100000x128, .f32⟩ : BufTy).Contents (Elt Ideal))
    (x1 : (⟨Cert.ReferenceIdeal.S2x1600000, .i32⟩ : BufTy).Contents (Elt Ideal))
    (x2 x3 : (⟨Cert.ReferenceIdeal.S128x128, .f32⟩ : BufTy).Contents (Elt Ideal))
    (x4 : (⟨Cert.ReferenceIdeal.S128, .f32⟩ : BufTy).Contents (Elt Ideal))
    (x5 x6 : (⟨Cert.ReferenceIdeal.S128x40, .f32⟩ : BufTy).Contents (Elt Ideal))
    (x7 : (⟨Cert.ReferenceIdeal.S40, .f32⟩ : BufTy).Contents (Elt Ideal)) (r : Fin 100000) (e : Fin 40),
    val_main_v65 (F := Ideal) x0 x1 x2 x3 x4 x5 x6 x7 (ix2 r e)
      = Cert.Sage.probs (val_main_v39 (F := Ideal) x0 x1 x2 x3 x4) (val_main_v29 (F := Ideal) x0 x1 x2 x3 x4)
          (fun q => val_main_v45 (F := Ideal) x1 (ix1 q)) x5 x6 (fun k => x7 (ix1 k)) r e

/-- The two layers are functions of their six arrays. -/
theorem hidden_congr {R : ℕ} {A A' X X' : (⟨2, ![R, 128]⟩ : Shape).Idx → EReal} {D D' : Fin R → EReal}
    {Wl Wl' Wr Wr' : (⟨2, ![128, 128]⟩ : Shape).Idx → EReal} {b b' : Fin 128 → EReal}
    (hA : A = A') (hX : X = X') (hD : D = D') (hl : Wl = Wl') (hr : Wr = Wr') (hb : b = b') (p : Fin R) (e : Fin 128) :
    Cert.Sage.hidden A X D Wl Wr b p e = Cert.Sage.hidden A' X' D' Wl' Wr' b' p e := by
  rw [hA, hX, hD, hl, hr, hb]

theorem probs_congr {R : ℕ} {A A' X X' : (⟨2, ![R, 128]⟩ : Shape).Idx → EReal} {D D' : Fin R → EReal}
    {Wl Wl' Wr Wr' : (⟨2, ![128, 40]⟩ : Shape).Idx → EReal} {b b' : Fin 40 → EReal}
    (hA : A = A') (hX : X = X') (hD : D = D') (hl : Wl = Wl') (hr : Wr = Wr') (hb : b = b') (p : Fin R) (e : Fin 40) :
    Cert.Sage.probs A X D Wl Wr b p e = Cert.Sage.probs A' X' D' Wl' Wr' b' p e := by
  rw [hA, hX, hD, hl, hr, hb]

variable (m : (ℓ : Loc nD τ sig) → Buf (Elt Ideal) ℓ) (ρ : Dev nD → PrngReg)

/-! ## What the first launch finds -/

set_option maxHeartbeats 1000000 in
/-- The neighbour sums of the inputs. -/
theorem V1_agg (c : Dev nD) : (V1 m ρ c main_v22 : S100000x128.Idx → EReal)
    = val_main_v13 (F := Ideal) (m ((c : Thread nD τ).loc main_arg0)) (m ((c : Thread nD τ).loc main_arg1)) := by
  dsimp only [V1, W1, hostOps0]; after_results <;> rfl

/-- The inputs themselves. -/
theorem V1_root (c : Dev nD) : (V1 m ρ c main_v11 : S100000x128.Idx → EReal) = m ((c : Thread nD τ).loc main_arg0) := by
  dsimp only [V1, W1, hostOps0]; after_results <;> rfl

/-- The clipped degrees, as a column. -/
theorem V1_deg (c : Dev nD) : (V1 m ρ c main_v10 : S100000x1.Idx → EReal)
    = shapeCast S100000x1 (val_main_v19 (F := Ideal) (m ((c : Thread nD τ).loc main_arg1))) shapeCasts_S100000_S100000x1 := by
  dsimp only [V1, W1, hostOps0]; after_results <;> rfl

theorem V1_wl (c : Dev nD) : (V1 m ρ c main_arg2 : S128x128.Idx → EReal) = m ((c : Thread nD τ).loc main_arg2) := by
  dsimp only [V1, W1, hostOps0]; after_results <;> rfl

theorem V1_wr (c : Dev nD) : (V1 m ρ c main_arg3 : S128x128.Idx → EReal) = m ((c : Thread nD τ).loc main_arg3) := by
  dsimp only [V1, W1, hostOps0]; after_results <;> rfl

/-- The first bias, as a row. -/
theorem V1_bias (c : Dev nD) : (V1 m ρ c main_v23 : S1x128.Idx → EReal)
    = shapeCast S1x128 (m ((c : Thread nD τ).loc main_arg4)) shapeCasts_S128_S1x128 := by
  dsimp only [V1, W1, hostOps0]; after_results <;> rfl

/-- What the first launch leaves: the reference's hidden array. -/
theorem hidden_arr (hpay : HiddenLayer.BodyIs) (href : RefHidden) (c : Dev nD) :
    (dat0 (V1 m ρ) c).arrAt 6 cfg0.N
      = val_main_v29 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  rw [HiddenLayer.final (V1 m ρ) hpay c]
  funext i
  obtain ⟨r, e, rfl⟩ : ∃ (r : Fin 100000) (e : Fin 128), i = ix2 r e := ⟨i 0, i 1, eq_ix2 i⟩
  rw [href]
  unfold HiddenLayer.outArr
  refine hidden_congr (V1_agg m ρ c) (V1_root m ρ c) (funext fun q => ?_) (V1_wl m ρ c) (V1_wr m ρ c) (funext fun k => ?_) r e
  · rw [V1_deg m ρ c]; exact Cert.LibRowwise.shapeCast_a_a1_apply _ _ q (0 : Fin 1)
  · rw [V1_bias m ρ c]; exact shapeCast_a_1a_apply _ _ (0 : Fin 1) k

/-! ## What the second launch finds -/

/-- The hidden array. -/
theorem W2_hidden (hpay : HiddenLayer.BodyIs) (href : RefHidden) (c : Dev nD) :
    W2 m ρ c (Proc.devRef .tc main_v24)
      = val_main_v29 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) :=
  (W2_arr m ρ c 6).trans (hidden_arr m ρ hpay href c)

/-- The edges' source and destination rows are as the first stretch left them. -/
theorem W2_src (c : Dev nD) : W2 m ρ c (Proc.devRef .tc main_v1) = val_main_v1 (F := Ideal) (m ((c : Thread nD τ).loc main_arg1)) :=
  (W2_of_ne m ρ c main_v1 (by decide)).trans (by dsimp only [W1, hostOps0]; after_results <;> rfl)

theorem W2_dst (c : Dev nD) : W2 m ρ c (Proc.devRef .tc main_v3) = val_main_v3 (F := Ideal) (m ((c : Thread nD τ).loc main_arg1)) :=
  (W2_of_ne m ρ c main_v3 (by decide)).trans (by dsimp only [W1, hostOps0]; after_results <;> rfl)

set_option maxHeartbeats 1000000 in
/-- The neighbour sums of the hidden rows. -/
theorem V3_agg (hpay : HiddenLayer.BodyIs) (href : RefHidden) (c : Dev nD) : (V3 m ρ c main_v35 : S100000x128.Idx → EReal)
    = val_main_v39 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  dsimp only [V3, W3, hostOps1]; after_results
  rw [W2_hidden m ρ hpay href c, W2_src m ρ c, W2_dst m ρ c]
  rfl

theorem V3_root (hpay : HiddenLayer.BodyIs) (href : RefHidden) (c : Dev nD) : (V3 m ρ c main_v24 : S100000x128.Idx → EReal)
    = val_main_v29 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  dsimp only [V3, W3, hostOps1]; after_results
  exact W2_hidden m ρ hpay href c

/-- The degree column again, against the reference's second computation of the degrees: the same array. -/
theorem V1_deg' (c : Dev nD) : (V1 m ρ c main_v10 : S100000x1.Idx → EReal)
    = shapeCast S100000x1 (val_main_v45 (F := Ideal) (m ((c : Thread nD τ).loc main_arg1))) shapeCasts_S100000_S100000x1 := by
  dsimp only [V1, W1, hostOps0]; after_results <;> rfl

/-- The degree column is an operand of the first launch too, which only reads it: the second launch finds it as the
    first did. -/
theorem V3_deg (c : Dev nD) : (V3 m ρ c main_v10 : S100000x1.Idx → EReal)
    = shapeCast S100000x1 (val_main_v45 (F := Ideal) (m ((c : Thread nD τ).loc main_arg1))) shapeCasts_S100000_S100000x1 := by
  dsimp only [V3, W3, hostOps1]; after_results
  exact ((W2_arr m ρ c 2).trans (((dat0 (V1 m ρ) c).arrAt_in 2 rfl _).trans (A_eq0 (V1 m ρ) c 2))).trans (V1_deg' m ρ c)

theorem V3_wl (c : Dev nD) : (V3 m ρ c main_arg5 : S128x40.Idx → EReal) = m ((c : Thread nD τ).loc main_arg5) := by
  dsimp only [V3, W3, hostOps1]; after_results
  exact (W2_of_ne m ρ c main_arg5 (by decide)).trans (by dsimp only [W1, hostOps0]; after_results <;> rfl)

theorem V3_wr (c : Dev nD) : (V3 m ρ c main_arg6 : S128x40.Idx → EReal) = m ((c : Thread nD τ).loc main_arg6) := by
  dsimp only [V3, W3, hostOps1]; after_results
  exact (W2_of_ne m ρ c main_arg6 (by decide)).trans (by dsimp only [W1, hostOps0]; after_results <;> rfl)

theorem W2_b2 (c : Dev nD) : W2 m ρ c (Proc.devRef .tc main_arg7) = m ((c : Thread nD τ).loc main_arg7) :=
  (W2_of_ne m ρ c main_arg7 (by decide)).trans (by dsimp only [W1, hostOps0]; after_results <;> rfl)

/-- The second bias, as a row. -/
theorem V3_bias (c : Dev nD) : (V3 m ρ c main_v36 : S1x40.Idx → EReal)
    = shapeCast S1x40 (m ((c : Thread nD τ).loc main_arg7)) shapeCasts_S40_S1x40 := by
  dsimp only [V3, W3, hostOps1]; after_results
  rw [W2_b2 m ρ c]
  rfl

/-- What the second launch leaves: the reference's result. -/
theorem out_arr (hpay0 : HiddenLayer.BodyIs) (hpay1 : OutLayer.BodyIs) (href0 : RefHidden) (href1 : RefOut) (c : Dev nD) :
    (dat1 (V3 m ρ) c).arrAt 6 cfg1.N
      = val_main_v65 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) := by
  rw [OutLayer.final (V3 m ρ) hpay1 c]
  funext i
  obtain ⟨r, e, rfl⟩ : ∃ (r : Fin 100000) (e : Fin 40), i = ix2 r e := ⟨i 0, i 1, eq_ix2 i⟩
  rw [href1]
  unfold OutLayer.outArr
  refine probs_congr (V3_agg m ρ hpay0 href0 c) (V3_root m ρ hpay0 href0 c) (funext fun q => ?_) (V3_wl m ρ c) (V3_wr m ρ c)
    (funext fun k => ?_) r e
  · rw [V3_deg m ρ c]; exact Cert.LibRowwise.shapeCast_a_a1_apply _ _ q (0 : Fin 1)
  · rw [V3_bias m ρ c]; exact shapeCast_a_1a_apply _ _ (0 : Fin 1) k

end Cert.KernelIdeal.Glue

end
-- ==== Proof.lean ====
/-
  A two-layer mean-aggregating graph convolution with a row softmax, computed by two launches among host operations,
  against the same network written with whole-array operations.

  Each layer is `(A / D) · Wl + X · Wr + b` row by row: `A` the sums of the neighbours' feature rows (a gather of the
  source nodes' rows scatter-added into the destination nodes), `D` the in-degrees clipped below at one, `X` the nodes' own
  rows.  The first layer is clipped below at zero; the second is followed by a softmax over each row's 40 entries.  On the
  extended reals a change of float format is the identity and every product and sum is exact, so the kernel program's
  host operations produce the reference's own intermediate arrays; a launch's 25 blocks of 4000 rows tile its output and
  each block holds the layer's function of the same rows of the operands; the only differences left are the place of
  the bias in the sum (addition commutes and associates) and a maximum taken once more with its own starting value.

  The three programs run and leave their arguments unchanged (the two kernel programs by their segments' run, the
  reference by its operations' run); the kernel program at the exact values is the printed one read at those values
  (nothing was rewritten); and from memories that agree on the arguments the kernel program's result and the
  reference's result are the same array.
-/
import proofs.«137908_j60816736911616_2_alg».proof.Defs
import proofs.«137908_j60816736911616_2_alg».proof.Proof.Gen.Kernel
import proofs.«137908_j60816736911616_2_alg».proof.Proof.Gen.Kernel.Skeleton
import proofs.«137908_j60816736911616_2_alg».proof.Proof.Gen.Kernel.Launch
import proofs.«137908_j60816736911616_2_alg».proof.Proof.Gen.Kernel.Points
import proofs.«137908_j60816736911616_2_alg».proof.Proof.Gen.Kernel.Frame
import proofs.«137908_j60816736911616_2_alg».proof.Proof.Gen.KernelIdeal
import proofs.«137908_j60816736911616_2_alg».proof.Proof.Gen.KernelIdeal.Skeleton
import proofs.«137908_j60816736911616_2_alg».proof.Proof.Gen.KernelIdeal.Launch
import proofs.«137908_j60816736911616_2_alg».proof.Proof.Gen.KernelIdeal.Points
import proofs.«137908_j60816736911616_2_alg».proof.Proof.Gen.KernelIdeal.Frame
import proofs.«137908_j60816736911616_2_alg».proof.Proof.Gen.ReferenceIdeal
import proofs.«137908_j60816736911616_2_alg».proof.Proof.Gen.Pre_finite_inputs
import proofs.«137908_j60816736911616_2_alg».proof.Proof.Gen.ReferenceIdeal.Run
import proofs.«137908_j60816736911616_2_alg».proof.Proof.Gen.ReferenceIdeal.Read
import proofs.«137908_j60816736911616_2_alg».proof.Proof.KRun
import proofs.«137908_j60816736911616_2_alg».proof.Proof.Pay
import proofs.«137908_j60816736911616_2_alg».proof.Proof.RefValue
import proofs.«137908_j60816736911616_2_alg».proof.Proof.Glue
import Idealize.ShloMosaic.Adequacy
import Idealize.ShloMosaic.Init

noncomputable section

namespace Cert.Proof

open Idealize.ShloMosaic Idealize.SL.Sem

/-- The printed kernel program runs and leaves its arguments as launched. -/
theorem frame_kernel : Cert.frame_Kernel (hKernel := Cert.Kernel.Gen.facts) (hPre_finite_inputs := Cert.Pre_finite_inputs.Gen.facts) :=
  fun m ρ _ => Cert.Kernel.Gen.frame m ρ

/-- So does the kernel program read at the exact values. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference is host operations only: its run, with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on the arguments both programs end with the reference's last array, read at the kernel
    program's arguments: the kernel program by its run and the two launches' output arrays, the reference by its
    operations' run. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.ReferenceIdeal.Read.val_main_v65 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Glue.out_arr m ρ Cert.KernelIdeal.Pay.pay0_apply Cert.KernelIdeal.Pay.pay1_apply
          Cert.ReferenceIdeal.RefValue.ref_hidden Cert.ReferenceIdeal.RefValue.ref_out c), (h c).2⟩)
      (Cert.KernelIdeal.KRun.run_out m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6, a7⟩ := hagree c
    rw [Cert.ReferenceIdeal.Read.val_main_v65_eq m' c, a0, a1, a2, a3, a4, a5, a6, a7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
